-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg1 main_cst_6
  let main_cst_7 : FVec F S_ .f32 := constant S_ .f32 0x40000000#32
  let main_v20 : FVec F S8192 .f32 := broadcastInDim S8192 ![] bcast_S_S8192 main_cst_7
  let main_v21 : FVec F S8192 .f32 := addf main_v20 main_v19
  let main_cst_8 : FVec F S_ .f32 := constant S_ .f32 0x00000000#32
  let main_v22 : FVec F S8192 .f32 := broadcastInDim S8192 ![] bcast_S_S8192 main_cst_8
  let main_v23 : IVec S8192 1 := cmpf .ogt main_v21 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v18 main_v24
  main_v25

def fn {F : FTy → Type} [FloatOps F] (main_arg0 : FVec F S8192x512 .f32) (main_arg1 : FVec F S8192x8192 .f32) (main_arg2 : FVec F S512x256 .f32) (main_arg3 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S8192x1 : Shape := ⟨2, ![8192, 1]⟩
abbrev S512x8192 : Shape := ⟨2, ![512, 8192]⟩
abbrev S512x1 : Shape := ⟨2, ![512, 1]⟩
abbrev S512 : Shape := ⟨1, ![512]⟩
abbrev S_ : Shape := ⟨0, ![]⟩
abbrev S8192x256 : Shape := ⟨2, ![8192, 256]⟩
abbrev S1024x512 : Shape := ⟨2, ![1024, 512]⟩
abbrev S1024x1 : Shape := ⟨2, ![1024, 1]⟩
abbrev S1024x256 : Shape := ⟨2, ![1024, 256]⟩
abbrev S1x256 : Shape := ⟨2, ![1, 256]⟩
abbrev S1024x1024 : Shape := ⟨2, ![1024, 1024]⟩

abbrev nBuf : Space → Nat
  | .hbm => 15
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x256, .bf16⟩
  | .hbm, ⟨13, _⟩ => ⟨S1x256, .f32⟩
  | .hbm, ⟨14, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1024x512, .f32⟩
  | .local _ .vmem, ⟨5, _⟩ => ⟨S1024x512, .f32⟩
  | .local _ .vmem, ⟨6, _⟩ => ⟨S512x256, .f32⟩
  | .local _ .vmem, ⟨7, _⟩ => ⟨S1024x1, .f32⟩
  | .local _ .vmem, ⟨8, _⟩ => ⟨S1024x1, .f32⟩
  | .local _ .vmem, ⟨9, _⟩ => ⟨S1024x256, .bf16⟩
  | .local _ .vmem, ⟨10, _⟩ => ⟨S1024x256, .bf16⟩
  | .local _ .vmem, ⟨11, _⟩ => ⟨S1024x1024, .f32⟩
  | .local _ .vmem, ⟨12, _⟩ => ⟨S1024x1024, .f32⟩
  | .local _ .vmem, ⟨13, _⟩ => ⟨S8192x256, .bf16⟩
  | .local _ .vmem, ⟨14, _⟩ => ⟨S1024x1, .f32⟩
  | .local _ .vmem, ⟨15, _⟩ => ⟨S1024x1, .f32⟩
  | .local _ .vmem, ⟨16, _⟩ => ⟨S1x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def k2_mult2 (i : grid2.Coords) : BitVec 32 :=
  let arg0 : BitVec 32 := BitVec.ofNat 32 (i 0).val
  let c1024_i32_8 : BitVec 32 := 1024#32
  let v19 : BitVec 32 := Scalar.muli arg0 c1024_i32_8
  v19
def k2_off2 (i : grid2.Coords) : Fin 2 → Nat :=
  let arg0 : BitVec 32 := BitVec.ofNat 32 (i 0).val
  let c1024_i32_8 : BitVec 32 := 1024#32
  let v19 : BitVec 32 := Scalar.muli arg0 c1024_i32_8
  let v20 : BitVec 32 := v19
  let v21 : Index := Scalar.indexCast v20
  let c0_9 : Index := 0#32
  ![v21.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S_S8192x1 : S_.BroadcastsInDim S8192x1 (![] : Fin 0 → Fin S8192x1.rank)
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .bf16 = 32 ∨ (Rect.block (s := S8192x256) S1024x256.size (cc1_transform_3 i) (hinb1_3 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x256.size a ≤ S8192x256.size a
  k2_mult2_dvd : ∀ i : grid2.Coords, ∀ (k2_h2 : k2_cond2 i = 1#1), 1024 ∣ (k2_mult2 i).toNat
  k2_off2_inb : ∀ i : grid2.Coords, ∀ (k2_h2 : k2_cond2 i = 1#1), ∀ a, (k2_off2 i) a + S1024x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S8192x256.size a
  hwx2_4 : ∀ i : grid2.Coords, EltTy.bits .f32 = 32 ∨ (Rect.block (s := S8192x256) S1024x256.size (cc2_transform_4 i) (hinb2_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S1x256 : Shape := ⟨2, ![1, 256]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x256, .f32⟩
  | .hbm, ⟨31, _⟩ => ⟨S8192x256, .f32⟩
  | .hbm, ⟨32, _⟩ => ⟨S1x256, .f32⟩
  | .hbm, ⟨33, _⟩ => ⟨S8192x256, .f32⟩
  | .hbm, ⟨34, _⟩ => ⟨S8192x256, .f32⟩
  | .hbm, ⟨35, _⟩ => ⟨S_, .f32⟩
  | .hbm, ⟨36, _⟩ => ⟨S8192x256, .f32⟩
  | .hbm, ⟨37, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_cst : Ref sig .tc := ⟨.hbm, 35, rfl⟩
abbrev main_call0_v0 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.BitsDegreeRegion.lean ====
/-
  (The program as printed, read at the word level: the same argument as for its idealization, which is the same text.)
  Region 0, the row-degree kernel: at grid point t (16 points) it loads a [512,8192] stripe of the adjacency, sums
  each row along the lanes and stores the [512,1] column of sums.  This module states, for any contents `V` of the
  buffers when the region is entered, what each window's staging buffer holds after the body at each point, proves
  the body's triple, and discharges the pipeline's body obligation.
-/
import proofs.«109137_j20117626815086_2_alg».proof.Proof.Gen.Kernel.Launch
import proofs.«109137_j20117626815086_2_alg».proof.Proof.Gen.Kernel.Skeleton
import proofs.«109137_j20117626815086_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.DegreeRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency stripe's staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x8192 := Rect.unit (s := S512x8192) ![0, 0] S512x8192.size inb_S512x8192_S512x8192_0_0
abbrev r0_1 : Rect S512x1 := Rect.unit (s := S512x1) ![0, 0] S512x1.size inb_S512x1_S512x1_0_0

/-- The column of row sums the body leaves in the output's staging buffer, from the stripe. -/
def out0_1 (x0 : Vec F S512x8192 .f32) : Vec F S512x1 .f32 :=
  View.canon [⟨r0_1, k0_pay1 (View.ld x0 r0_0)⟩]

/-- The one store covers the whole buffer. -/
theorem cover0_1 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

set_option maxHeartbeats 1000000 in
/-- The body on whole staging memrefs: the stripe's at `x0`, the output's at anything; it ends with the stripe's as
    it was and the output's at the column of row sums. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_degree_kernel i arg1 harg1 arg2 harg2) K := by
  simp only [cc0_degree_kernel_eq_skeleton]; unfold cc0_degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    stripe's buffer at its block and the output's at that block's row sums; nothing owed, full shares, the class's
    invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.DegreeRegion

end
-- ==== Proof.BitsSupportRegion.lean ====
/-
  (The program as printed, read at the word level: the same argument as for its idealization, which is the same text.)
  Region 1, the support kernel: at grid point t (8 points) it loads a [1024,512] block of the features, the whole
  [512,256] weight and a [1024,1] column of node scalings, multiplies features by weight, scales each row by its
  node's scaling and stores the [1024,256] block.  For any contents `V` of the buffers when the region is entered:
  what each window's staging buffer holds after the body at each point, the body's triple, and the pipeline's body
  obligation.
-/
import proofs.«109137_j20117626815086_2_alg».proof.Proof.Gen.Kernel.Launch
import proofs.«109137_j20117626815086_2_alg».proof.Proof.Gen.Kernel.Skeleton
import proofs.«109137_j20117626815086_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.SupportRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x512 := Rect.unit (s := S1024x512) ![0, 0] S1024x512.size inb_S1024x512_S1024x512_0_0
abbrev r1_1 : Rect S512x256 := Rect.unit (s := S512x256) ![0, 0] S512x256.size inb_S512x256_S512x256_0_0
abbrev r1_2 : Rect S1024x1 := Rect.unit (s := S1024x1) ![0, 0] S1024x1.size inb_S1024x1_S1024x1_0_0
abbrev r1_3 : Rect S1024x256 := Rect.unit (s := S1024x256) ![0, 0] S1024x256.size inb_S1024x256_S1024x256_0_0

/-- The scaled product the body leaves in the output's staging buffer, from the three input blocks. -/
def out1_3 (x0 : Vec F S1024x512 .f32) (x1 : Vec F S512x256 .f32) (x2 : Vec F S1024x1 .f32) : Vec F S1024x256 .bf16 :=
  View.canon [⟨r1_3, k1_pay1 (View.ld x0 r1_0) (View.ld x1 r1_1) (View.ld x2 r1_2)⟩]

/-- The one store covers the whole buffer. -/
theorem cover1_3 (p0 : Vec F S1024x256 .bf16) (y : S1024x256.Idx) :
    ∃ pc ∈ ([⟨r1_3, p0⟩] : List (View.Piece (Elt F) S1024x256 .bf16)), y ∈ pc.1.set :=
  View.cover_of_tiled [⟨r1_3, p0⟩] S1024x256.size (by rfl) y

set_option maxHeartbeats 1000000 in
/-- The body on whole staging memrefs: the inputs' at `x0 x1 x2`, the output's at anything; it ends with the inputs'
    as they were and the output's at the scaled product. -/
theorem sound_kernel1 (c : Dev nD) (E : Set ℕ) (i : grid1.Coords) (arg1 : Memref sig .tc .vmem S1024x512 .f32) (harg1 : arg1.IsWhole) (arg2 : Memref sig .tc .vmem S512x256 .f32) (harg2 : arg2.IsWhole)
    (arg3 : Memref sig .tc .vmem S1024x1 .f32) (harg3 : arg3.IsWhole) (arg4 : Memref sig .tc .vmem S1024x256 .bf16) (harg4 : arg4.IsWhole)
    (x0 : Vec F S1024x512 .f32) (x1 : Vec F S512x256 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_support_kernel i arg1 harg1 arg2 harg2 arg3 harg3 arg4 harg4) K := by
  simp only [cc1_support_kernel_eq_skeleton]; unfold cc1_support_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.SupportRegion

end
-- ==== Proof.BitsRunEarly.lean ====
/-
  (The program as printed, read at the word level: the same argument as for its idealization, which is the same text.)
  The buffer contents at the boundaries of @main before the main region: `W0` the launch memory; `W1` after the
  row-degree region; `W2` after the host operations that turn degrees into node scalings; `W3` after the support
  region; `W4` after the reshape of the bias.
-/
import proofs.«109137_j20117626815086_2_alg».proof.Proof.Gen.Kernel.Launch
import proofs.«109137_j20117626815086_2_alg».proof.Proof.Gen.Kernel.Skeleton
import proofs.«109137_j20117626815086_2_alg».proof.Proof.Gen.Kernel.Points
import proofs.«109137_j20117626815086_2_alg».proof.Proof.Gen.Kernel.Regions
import proofs.«109137_j20117626815086_2_alg».proof.Proof.BitsDegreeRegion
import proofs.«109137_j20117626815086_2_alg».proof.Proof.BitsSupportRegion
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.DegreeRegion Cert.Kernel.SupportRegion

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m (c, b)
abbrev V0 : (c : Dev nD) → (b : Ref sig .tc) → Buf (Elt F) ((c : Thread nD τ).loc b) := fun c b => W0 m c b
/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first host stretch (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-! ## A buffer no host operation writes keeps its contents across a host stretch -/

theorem W2_of (c : Dev nD) (r : Ref sig .tc) (h : r ∉ hostOps1_W) : W2 m c (Proc.devRef .tc r) = W1 m c (Proc.devRef .tc r) :=
  StableHlo.after_of_writes_sub hostOps1 _ hostOps1_writes h
theorem W4_of (c : Dev nD) (r : Ref sig .tc) (h : r ∉ hostOps2_W) : W4 m c (Proc.devRef .tc r) = W3 m c (Proc.devRef .tc r) :=
  StableHlo.after_of_writes_sub hostOps2 _ hostOps2_writes h

end Cert.Kernel.Run

end
-- ==== Proof.BitsMainCases.lean ====
/-
  (The program as printed, read at the word level: the same argument as for its idealization, which is the same text.)
  Region 2, the propagation kernel, on an 8×8 grid: point t has coordinates (i, k) = (t / 8, t % 8).  For row block i
  it accumulates over k, in an f32 scratch of shape [1024,256], the products of the adjacency tile (i, k) with rows
  1024·k … of the scaled support; the scratch is zeroed when k = 0, and when k = 7 the output block i is computed
  from the scratch, rows 1024·i … of the scaled support, the column of node scalings and the bias row.

  This module holds what the three control cases of the body share: the two branch conditions with their closed
  forms over the grid, where the output window is idle and where it is written back, the staging and scratch memrefs
  the pipeline passes at a point, and the region invariant with the scratch singled out.
-/
import proofs.«109137_j20117626815086_2_alg».proof.Proof.Gen.Kernel.Launch
import proofs.«109137_j20117626815086_2_alg».proof.Proof.Gen.Kernel.Skeleton
import proofs.«109137_j20117626815086_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.MainRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body zeroes the scratch accumulator: the condition of its first `scf.if`, the comparison `k = 0` as the
    kernel computes it from the grid coordinates. -/
abbrev zeroes (i : grid2.Coords) : Prop := (Scalar.cmpi .ne (Scalar.extui (Scalar.cmpi .eq (BitVec.ofNat 32 (i 1).val) 0#32)) 0#32) = 1#1
/-- It holds exactly at the points with k = 0. -/
theorem zeroes_iff : ∀ t : Fin cfg2.N, zeroes (grid2.coords t) ↔ t.val % 8 = 0 :=
  (by decide +kernel : ∀ t : Fin grid2.N, zeroes (grid2.coords t) ↔ t.val % 8 = 0)

/-- The body stores the output block: the condition of its second `scf.if`, the comparison `k = 7`. -/
abbrev emits (i : grid2.Coords) : Prop := k2_cond2 i = 1#1
/-- It holds exactly at the points with k = 7. -/
theorem emits_iff : ∀ t : Fin cfg2.N, emits (grid2.coords t) ↔ t.val % 8 = 7 :=
  (by decide +kernel : ∀ t : Fin grid2.N, emits (grid2.coords t) ↔ t.val % 8 = 7)

/-! ## Where the windows are idle, and where the output is written back -/

/-- The four input windows are never idle. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Where k = 0 the body stores nothing into the output window: it is idle there, -/
theorem idle2_4_first : ∀ t : Fin cfg2.N, zeroes (grid2.coords t) → ¬emits (grid2.coords t) → cfg2.idle 4 (grid2.coords t) = true := by decide +kernel
/-- and the pipeline does not write its block back. -/
theorem noFlush2_4_first : ∀ t : Fin cfg2.N, zeroes (grid2.coords t) → ¬emits (grid2.coords t) → (cfg2.win 4).flush t = false := by decide +kernel
/-- The same where 0 < k < 7. -/
theorem idle2_4_middle : ∀ t : Fin cfg2.N, ¬zeroes (grid2.coords t) → ¬emits (grid2.coords t) → cfg2.idle 4 (grid2.coords t) = true := by decide +kernel
theorem noFlush2_4_middle : ∀ t : Fin cfg2.N, ¬zeroes (grid2.coords t) → ¬emits (grid2.coords t) → (cfg2.win 4).flush t = false := by decide +kernel
/-- Where k = 7 the output window is live: the body stores its block. -/
theorem live2_4_last : ∀ t : Fin cfg2.N, ¬zeroes (grid2.coords t) → emits (grid2.coords t) → cfg2.idle 4 (grid2.coords t) = false := by decide +kernel

/-! ## The memrefs the body is called with -/

/-- Each window's current staging memref at point `t`, as the pipeline passes it, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .f32 := win2_4.stage (cfg2.slots t 4)
abbrev hs2_4 (t : Fin cfg2.N) : (ms2_4 t).IsWhole := hstage2_4 ((cfg2.slots t 4).cast nbuf2_4)
/-- The scratch accumulator: a whole scoped buffer of the kernel's own, passed beside the windows. -/
abbrev accM : Memref sig .tc .vmem S1024x256 .f32 := Memref.whole cc2_scratch0
/-- The view through which the accumulator's contents are stated. -/
abbrev accV : View sig .tc .vmem S1024x256 .f32 := accM.view
/-- One staging buffer of the output window, through which its contents are stated (what pieces written over
    anything read back as does not depend on the buffer once the pieces cover it). -/
abbrev outV : View sig .tc .vmem S1024x256 .f32 := (Memref.whole cc2_stg4_0 : Memref sig .tc .vmem S1024x256 .f32).view

/-! ## The region invariant, with the accumulator singled out -/

/-- The staging buffers of the two earlier regions: scoped buffers of the core that this region's body never touches,
    each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- What the launch hands the region and takes back: the earlier regions' staging buffers, the accumulator at some
    contents, and the generator register at some state. -/
theorem PhiA2_eq (c : Dev nD) :
    (Pipeline.ΦA spec2 c : sProp 𝕄)
      = iprop(iprop(otherStaging (F := F) c ∗ (∃ d, owns (c : Thread nD τ) accM fullShare d)) ∗ (∃ r, prngReg c r)) := by
  unfold Pipeline.ΦA otherStaging; rw [scopedRest2_eq]; simp only [accM, owns_whole]
  refine BI.equiv_iff.mp ⟨?_, ?_⟩
  · show (_ : sProp 𝕄) ⊢ (_ : sProp 𝕄)
    iintro ⟨⟨R0, R1, R2, R3, R4, R5, R6, R7, R8, R9, R10, HS⟩, Hg⟩
    iframe
  · show (_ : sProp 𝕄) ⊢ (_ : sProp 𝕄)
    iintro ⟨⟨⟨R0, R1, R2, R3, R4, R5, R6, R7, R8, R9, R10⟩, HS⟩, Hg⟩
    iframe

end Cert.Kernel.MainRegion

end
-- ==== Proof.BitsMainRunFirst.lean ====
/-
  (The program as printed, read at the word level: the same argument as for its idealization, which is the same text.)
  Region 2's body where k = 0 (the accumulator is zeroed, no output block is stored): its triple on whole staging
  memrefs, with the pieces its stores leave in the accumulator found by running it.
-/
import proofs.«109137_j20117626815086_2_alg».proof.Proof.BitsMainCases

set_option maxRecDepth 16384

noncomputable section

namespace Cert.Kernel.MainRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE k = 0.  On whole memrefs — the four inputs' at contents `x0 … x3`, the output's at contents `xi4`
    that it hands back untouched, the accumulator's at anything — the body runs to a continuation that holds the inputs'
    and the output's as they were and the accumulator with the pieces `LS` of its two stores (the zeroing, then the
    first product added) written.  The pieces are the witness the run finds; the output gets none. -/
noncomputable def runFirst (c : Dev nD) (i : grid2.Coords) (arg2 : Memref sig .tc .vmem S1024x1024 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hz : zeroes i) (he : ¬emits i)
    (x0 : Vec F S1024x1024 .f32) (x1 : Vec F S8192x256 .bf16) (x2 : Vec F S1024x1 .f32) (x3 : Vec F S1x256 .f32) :
    Σ' (L4 : List (View.Piece (Elt F) S1024x256 .f32)), { LS : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2_main_kernel i arg2 harg2 arg3 harg3 arg4 harg4 arg5 harg5 arg6 harg6 arg7 harg7) K } := by
  refine ⟨[], ?_, fun xi4 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.MainRegion

end
-- ==== Proof.BitsMainRunMiddle.lean ====
/-
  (The program as printed, read at the word level: the same argument as for its idealization, which is the same text.)
  Region 2's body where 0 < k < 7 (one more product is added to the accumulator, no output block is stored): its
  triple on whole staging memrefs, with the piece its store leaves in the accumulator found by running it.
-/
import proofs.«109137_j20117626815086_2_alg».proof.Proof.BitsMainRunFirst

set_option maxRecDepth 16384

noncomputable section

namespace Cert.Kernel.MainRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE 0 < k < 7.  On whole memrefs — the four inputs' at contents `x0 … x3`, the output's at contents
    `xi4` that it hands back untouched, the accumulator's at the contents `xs` the point before left — the body runs
    to a continuation that holds the inputs' and the output's as they were and the accumulator with the piece `LS` of
    its one store (the product of the adjacency tile with its rows of the support, added to `xs`) written.  The piece
    is the witness the run finds; the output gets none. -/
noncomputable def runMiddle (c : Dev nD) (i : grid2.Coords) (arg2 : Memref sig .tc .vmem S1024x1024 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hz : ¬zeroes i) (he : ¬emits i)
    (x0 : Vec F S1024x1024 .f32) (x1 : Vec F S8192x256 .bf16) (x2 : Vec F S1024x1 .f32) (x3 : Vec F S1x256 .f32) (xs : Vec F S1024x256 .f32) :
    Σ' (L4 : List (View.Piece (Elt F) S1024x256 .f32)), { LS : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2_main_kernel i arg2 harg2 arg3 harg3 arg4 harg4 arg5 harg5 arg6 harg6 arg7 harg7) K } := by
  refine ⟨[], ?_, fun xi4 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.MainRegion

end
-- ==== Proof.BitsMainRunLast.lean ====
/-
  (The program as printed, read at the word level: the same argument as for its idealization, which is the same text.)
  Region 2's body where k = 7 (the last product is added to the accumulator and the output block is computed from
  it): its triple on whole staging memrefs, with the pieces its stores leave in the accumulator and in the output's
  buffer found by running it.
-/
import proofs.«109137_j20117626815086_2_alg».proof.Proof.BitsMainRunMiddle

set_option maxRecDepth 16384

noncomputable section

namespace Cert.Kernel.MainRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE k = 7.  On whole memrefs — the four inputs' at contents `x0 … x3`, the output's at anything, the
    accumulator's at the contents `xs` the point before left — the body runs to a continuation that holds the inputs'
    as they were, the accumulator with the piece `LS` of its store (the last product added to `xs`) written, and the
    output's buffer with the piece `L4` of its store (the block computed from the finished accumulator, rows of the
    support, the node scalings and the bias) written.  The pieces are the witnesses the run finds. -/
noncomputable def runLast (c : Dev nD) (i : grid2.Coords) (arg2 : Memref sig .tc .vmem S1024x1024 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hz : ¬zeroes i) (he : emits i)
    (x0 : Vec F S1024x1024 .f32) (x1 : Vec F S8192x256 .bf16) (x2 : Vec F S1024x1 .f32) (x3 : Vec F S1x256 .f32) (xs : Vec F S1024x256 .f32) :
    Σ' (L4 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc2_main_kernel i arg2 harg2 arg3 harg3 arg4 harg4 arg5 harg5 arg6 harg6 arg7 harg7) K } := by
  refine ⟨?_, ?_, fun E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.MainRegion

end
-- ==== Proof.BitsMainRegion.lean ====
/-
  (The program as printed, read at the word level: the same argument as for its idealization, which is the same text.)
  Region 2, the propagation kernel: what the output's staging buffer and the scratch accumulator hold after the body
  at each of the 64 grid points, for any contents `V` of the buffers when the region is entered; the pipeline's proof
  data over `V`, whose invariant carries the accumulator from one point to the next; the body obligation; and that the
  invariant starts from, and gives back, what the launch hands the region.

  At point t = 8·i + k the accumulator holds the sum over k' ≤ k of the products of adjacency tile (i, k') with rows
  1024·k' … of the scaled support, built up one product a point from zero at k = 0; the output's buffer is stored only
  at k = 7, from the finished accumulator, and is idle (handed back as found, not written back) at the other points.
-/
import proofs.«109137_j20117626815086_2_alg».proof.Proof.BitsMainRunLast

set_option maxRecDepth 16384

noncomputable section

namespace Cert.Kernel.MainRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's current staging buffer holds its block at every point, fetched there or not (the adjacency tile is
    fetched at every point, the node scalings when k = 0, the support and the bias at the first point only: where a
    window is not fetched its block index has not moved), for any proof data over `V` whose body leaves the block in
    place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The three runs at a grid point -/

/-- The run where k = 0, at point `t`: on the memrefs the pipeline passes there and the windows' blocks. -/
abbrev firstAt (c : Dev nD) (t : Fin cfg2.N) (hz : zeroes (grid2.coords t)) (he : ¬emits (grid2.coords t)) :=
  runFirst (F := F) c (grid2.coords t) (ms2_0 t) (hs2_0 t) (ms2_1 t) (hs2_1 t) (ms2_2 t) (hs2_2 t) (ms2_3 t) (hs2_3 t) (ms2_4 t) (hs2_4 t) accM (Memref.isWhole_whole _) hz he (iblk2 V c 0 t) (iblk2 V c 1 t) (iblk2 V c 2 t) (iblk2 V c 3 t)
/-- The run where 0 < k < 7, at point `t`, the accumulator at `xs`. -/
abbrev middleAt (c : Dev nD) (t : Fin cfg2.N) (hz : ¬zeroes (grid2.coords t)) (he : ¬emits (grid2.coords t)) (xs : Vec F S1024x256 .f32) :=
  runMiddle (F := F) c (grid2.coords t) (ms2_0 t) (hs2_0 t) (ms2_1 t) (hs2_1 t) (ms2_2 t) (hs2_2 t) (ms2_3 t) (hs2_3 t) (ms2_4 t) (hs2_4 t) accM (Memref.isWhole_whole _) hz he (iblk2 V c 0 t) (iblk2 V c 1 t) (iblk2 V c 2 t) (iblk2 V c 3 t) xs
/-- The run where k = 7, at point `t`, the accumulator at `xs`. -/
abbrev lastAt (c : Dev nD) (t : Fin cfg2.N) (hz : ¬zeroes (grid2.coords t)) (he : emits (grid2.coords t)) (xs : Vec F S1024x256 .f32) :=
  runLast (F := F) c (grid2.coords t) (ms2_0 t) (hs2_0 t) (ms2_1 t) (hs2_1 t) (ms2_2 t) (hs2_2 t) (ms2_3 t) (hs2_3 t) (ms2_4 t) (hs2_4 t) accM (Memref.isWhole_whole _) hz he (iblk2 V c 0 t) (iblk2 V c 1 t) (iblk2 V c 2 t) (iblk2 V c 3 t) xs

/-! ## What each run leaves: the pieces cover, and read back -/

/-- Where k = 0 the accumulator's two whole-buffer stores cover it. -/
theorem accCover_first (c : Dev nD) (t : Fin cfg2.N) (hz : zeroes (grid2.coords t)) (he : ¬emits (grid2.coords t)) (y : S1024x256.Idx) :
    ∃ pc ∈ (firstAt V c t hz he).2.1, y ∈ pc.1.set :=
  View.cover_of_tiledL (firstAt V c t hz he).2.1 S1024x256.size (by sl_kernel_rfl) y
/-- What the run where k = 0 leaves in the accumulator: its pieces read back. -/
def accFirst (c : Dev nD) (t : Fin cfg2.N) (hz : zeroes (grid2.coords t)) (he : ¬emits (grid2.coords t)) : Vec F S1024x256 .f32 :=
  accV.read (Elt F) (accV.writes (Elt F) accV.junk (firstAt V c t hz he).2.1)
/-- It stores nothing into the output's buffer: a placeholder that nothing consults, the window being neither written
    back there nor read at the next point. -/
def outFirst (c : Dev nD) (t : Fin cfg2.N) (hz : zeroes (grid2.coords t)) (he : ¬emits (grid2.coords t)) : Vec F S1024x256 .f32 :=
  outV.read (Elt F) (outV.writes (Elt F) outV.junk (firstAt V c t hz he).1)

/-- Where 0 < k < 7 the accumulator's one whole-buffer store covers it. -/
theorem accCover_middle (c : Dev nD) (t : Fin cfg2.N) (hz : ¬zeroes (grid2.coords t)) (he : ¬emits (grid2.coords t)) (xs : Vec F S1024x256 .f32) (y : S1024x256.Idx) :
    ∃ pc ∈ (middleAt V c t hz he xs).2.1, y ∈ pc.1.set :=
  View.cover_of_tiledL (middleAt V c t hz he xs).2.1 S1024x256.size (by sl_kernel_rfl) y
/-- What the run where 0 < k < 7 leaves in the accumulator. -/
def accMiddle (c : Dev nD) (t : Fin cfg2.N) (hz : ¬zeroes (grid2.coords t)) (he : ¬emits (grid2.coords t)) (xs : Vec F S1024x256 .f32) : Vec F S1024x256 .f32 :=
  accV.read (Elt F) (accV.writes (Elt F) accV.junk (middleAt V c t hz he xs).2.1)
/-- It stores nothing into the output's buffer either: the same placeholder. -/
def outMiddle (c : Dev nD) (t : Fin cfg2.N) (hz : ¬zeroes (grid2.coords t)) (he : ¬emits (grid2.coords t)) (xs : Vec F S1024x256 .f32) : Vec F S1024x256 .f32 :=
  outV.read (Elt F) (outV.writes (Elt F) outV.junk (middleAt V c t hz he xs).1)

/-- Where k = 7 the accumulator's one whole-buffer store covers it, -/
theorem accCover_last (c : Dev nD) (t : Fin cfg2.N) (hz : ¬zeroes (grid2.coords t)) (he : emits (grid2.coords t)) (xs : Vec F S1024x256 .f32) (y : S1024x256.Idx) :
    ∃ pc ∈ (lastAt V c t hz he xs).2.1, y ∈ pc.1.set :=
  View.cover_of_tiledL (lastAt V c t hz he xs).2.1 S1024x256.size (by sl_kernel_rfl) y
/-- and the output's one whole-block store covers its buffer. -/
theorem outCover_last (c : Dev nD) (t : Fin cfg2.N) (hz : ¬zeroes (grid2.coords t)) (he : emits (grid2.coords t)) (xs : Vec F S1024x256 .f32) (y : S1024x256.Idx) :
    ∃ pc ∈ (lastAt V c t hz he xs).1, y ∈ pc.1.set :=
  View.cover_of_tiledL (lastAt V c t hz he xs).1 S1024x256.size (by sl_kernel_rfl) y
/-- What the run where k = 7 leaves in the accumulator, -/
def accLast (c : Dev nD) (t : Fin cfg2.N) (hz : ¬zeroes (grid2.coords t)) (he : emits (grid2.coords t)) (xs : Vec F S1024x256 .f32) : Vec F S1024x256 .f32 :=
  accV.read (Elt F) (accV.writes (Elt F) accV.junk (lastAt V c t hz he xs).2.1)
/-- and in the output's buffer: the finished block. -/
def outLast (c : Dev nD) (t : Fin cfg2.N) (hz : ¬zeroes (grid2.coords t)) (he : emits (grid2.coords t)) (xs : Vec F S1024x256 .f32) : Vec F S1024x256 .f32 :=
  outV.read (Elt F) (outV.writes (Elt F) outV.junk (lastAt V c t hz he xs).1)

/-- Read back, covering pieces are their canonical form: the last piece that contains an index decides it. -/
theorem accFirst_eq_canon (c : Dev nD) (t : Fin cfg2.N) (hz : zeroes (grid2.coords t)) (he : ¬emits (grid2.coords t)) :
    accFirst V c t hz he = View.canon (firstAt V c t hz he).2.1 :=
  View.read_writes_eq_canon _ _ _ (accCover_first V c t hz he)
theorem accMiddle_eq_canon (c : Dev nD) (t : Fin cfg2.N) (hz : ¬zeroes (grid2.coords t)) (he : ¬emits (grid2.coords t)) (xs : Vec F S1024x256 .f32) :
    accMiddle V c t hz he xs = View.canon (middleAt V c t hz he xs).2.1 :=
  View.read_writes_eq_canon _ _ _ (accCover_middle V c t hz he xs)
theorem accLast_eq_canon (c : Dev nD) (t : Fin cfg2.N) (hz : ¬zeroes (grid2.coords t)) (he : emits (grid2.coords t)) (xs : Vec F S1024x256 .f32) :
    accLast V c t hz he xs = View.canon (lastAt V c t hz he xs).2.1 :=
  View.read_writes_eq_canon _ _ _ (accCover_last V c t hz he xs)
theorem outLast_eq_canon (c : Dev nD) (t : Fin cfg2.N) (hz : ¬zeroes (grid2.coords t)) (he : emits (grid2.coords t)) (xs : Vec F S1024x256 .f32) :
    outLast V c t hz he xs = View.canon (lastAt V c t hz he xs).1 :=
  View.read_writes_eq_canon _ _ _ (outCover_last V c t hz he xs)

/-! ## What the output's buffer and the accumulator hold after each point -/

/-- THE ACCUMULATION.  The pair (output's staging buffer, accumulator) after the body at position `n`: the run the
    closed forms select there, at the point's memrefs and input blocks, the accumulator where it is read before
    being stored (k > 0) at what position `n - 1` left in it.  The two conditions never hold together. -/
def outsAt2 (c : Dev nD) : (n : ℕ) → n < cfg2.N → Vec F S1024x256 .f32 × Vec F S1024x256 .f32
  | 0, hn =>
    (outFirst V c ⟨0, hn⟩ ((zeroes_iff ⟨0, hn⟩).mpr (Nat.zero_mod _)) (fun h => (fun h => by (try dsimp only at h); omega) ((emits_iff ⟨0, hn⟩).mp h)),
     accFirst V c ⟨0, hn⟩ ((zeroes_iff ⟨0, hn⟩).mpr (Nat.zero_mod _)) (fun h => (fun h => by (try dsimp only at h); omega) ((emits_iff ⟨0, hn⟩).mp h)))
  | n + 1, hn =>
    if h0 : (n + 1) % 8 = 0 then
      if h1 : (n + 1) % 8 = 7 then
        False.elim (by omega)
      else
        (outFirst V c ⟨n + 1, hn⟩ ((zeroes_iff ⟨n + 1, hn⟩).mpr h0) (fun h => h1 ((emits_iff ⟨n + 1, hn⟩).mp h)),
         accFirst V c ⟨n + 1, hn⟩ ((zeroes_iff ⟨n + 1, hn⟩).mpr h0) (fun h => h1 ((emits_iff ⟨n + 1, hn⟩).mp h)))
    else
      if h1 : (n + 1) % 8 = 7 then
        (outLast V c ⟨n + 1, hn⟩ (fun h => h0 ((zeroes_iff ⟨n + 1, hn⟩).mp h)) ((emits_iff ⟨n + 1, hn⟩).mpr h1) (outsAt2 c n (Nat.lt_of_succ_lt hn)).2,
         accLast V c ⟨n + 1, hn⟩ (fun h => h0 ((zeroes_iff ⟨n + 1, hn⟩).mp h)) ((emits_iff ⟨n + 1, hn⟩).mpr h1) (outsAt2 c n (Nat.lt_of_succ_lt hn)).2)
      else
        (outMiddle V c ⟨n + 1, hn⟩ (fun h => h0 ((zeroes_iff ⟨n + 1, hn⟩).mp h)) (fun h => h1 ((emits_iff ⟨n + 1, hn⟩).mp h)) (outsAt2 c n (Nat.lt_of_succ_lt hn)).2,
         accMiddle V c ⟨n + 1, hn⟩ (fun h => h0 ((zeroes_iff ⟨n + 1, hn⟩).mp h)) (fun h => h1 ((emits_iff ⟨n + 1, hn⟩).mp h)) (outsAt2 c n (Nat.lt_of_succ_lt hn)).2)

/-- At a point with k = 0: the zeroed accumulator plus the first product; the output's buffer untouched. -/
theorem outsAt2_first (c : Dev nD) (t : Fin cfg2.N) (h0 : t.val % 8 = 0) (h1 : ¬t.val % 8 = 7) :
    outsAt2 V c t.val t.isLt = (outFirst V c t ((zeroes_iff t).mpr h0) (fun h => h1 ((emits_iff t).mp h)), accFirst V c t ((zeroes_iff t).mpr h0) (fun h => h1 ((emits_iff t).mp h))) := by
  obtain ⟨n, hn⟩ := t
  cases n with
  | zero => exact rfl
  | succ n => exact (dif_pos h0).trans ((dif_neg h1).trans rfl)

/-- At a point with 0 < k < 7: one more product added to what the point before left; the output's buffer untouched. -/
theorem outsAt2_middle (c : Dev nD) (t : Fin cfg2.N) (h0 : ¬t.val % 8 = 0) (h1 : ¬t.val % 8 = 7) :
    outsAt2 V c t.val t.isLt = (outMiddle V c t (fun h => h0 ((zeroes_iff t).mp h)) (fun h => h1 ((emits_iff t).mp h)) (outsAt2 V c (t.val - 1) (Nat.lt_of_le_of_lt (Nat.sub_le _ _) t.isLt)).2, accMiddle V c t (fun h => h0 ((zeroes_iff t).mp h)) (fun h => h1 ((emits_iff t).mp h)) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: the last product added to what the point before left, and the output block from the sum. -/
theorem outsAt2_last (c : Dev nD) (t : Fin cfg2.N) (h0 : ¬t.val % 8 = 0) (h1 : t.val % 8 = 7) :
    outsAt2 V c t.val t.isLt = (outLast V c t (fun h => h0 ((zeroes_iff t).mp h)) ((emits_iff t).mpr h1) (outsAt2 V c (t.val - 1) (Nat.lt_of_le_of_lt (Nat.sub_le _ _) t.isLt)).2, accLast V c t (fun h => h0 ((zeroes_iff t).mp h)) ((emits_iff t).mpr h1) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- The region invariant before position `n`: before the first point what the launch hands over (the accumulator at
    anything); afterwards the same with the accumulator at what the point before left in it. -/
def PhiS (c : Dev nD) : (n : ℕ) → n ≤ cfg2.N → sProp 𝕄
  | 0, _ => Pipeline.ΦA spec2 c
  | n + 1, hn => iprop(iprop(otherStaging (F := F) c ∗ owns (c : Thread nD τ) accM fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

/-- After point `n`: the accumulator at that point's contents. -/
theorem PhiS_succ (c : Dev nD) (n : ℕ) (hn : n < cfg2.N) :
    PhiS V c (n + 1) hn = iprop(iprop(otherStaging (F := F) c ∗ owns (c : Thread nD τ) accM fullShare ((outsAt2 V c n hn).2)) ∗ (∃ r, prngReg c r)) := rfl

/-- Before a point that is not the first: the accumulator at what the point before left. -/
theorem PhiS_pos (c : Dev nD) (n : ℕ) (h : n ≤ cfg2.N) (hz : n ≠ 0) :
    PhiS V c n h = iprop(iprop(otherStaging (F := F) c ∗ owns (c : Thread nD τ) accM fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point.  The inputs' memrefs hold their blocks; the closed forms say which of the three runs the
    point takes; the invariant hands the run the accumulator (at anything at the first point, else at what the point
    before left) and takes it back at this point's contents, the pieces covering it; where k < 7 the output's buffer
    goes through untouched, where k = 7 it comes back at the block the pieces of its store cover; the earlier regions'
    staging buffers, the generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 64 := lt_of_lt_of_eq t.isLt (show cfg2.N = 64 from N_2)
  by_cases h0 : t.val % 8 = 0
  · by_cases h1 : t.val % 8 = 7
    · exfalso; omega
    · -- k = 0
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idle2_4_first t ((zeroes_iff t).mpr h0) (fun h => h1 ((emits_iff t).mp h))) (noFlush2_4_first t ((zeroes_iff t).mpr h0) (fun h => h1 ((emits_iff t).mp h)))]
      rw [outsAt2_first V c t h0 h1]
      unfold accFirst; (try dsimp only)
      by_cases hz0 : t.val = 0
      · -- the region's first point: the accumulator as the launch left it
        rw [PhiS_castSucc V c t, PhiS_zero V c _ _ hz0, PhiA2_eq]
        iintro ⟨⟨⟨HR, HS⟩, Hg⟩, Ho, ⟨%d0, H0⟩, ⟨%d1, H1⟩, ⟨%d2, H2⟩, ⟨%d3, H3⟩, ⟨%d4, H4⟩⟩
        iapply ((firstAt V c t ((zeroes_iff t).mpr h0) (fun h => h1 ((emits_iff t).mp h))).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HR HS Hg]
        · isplitl [HR HS]
          · isplitl [HR]; · iexact HR
            unfold owns; iexists _; isplitr
            swap; · iexact HS
            ipureintro; exact View.read_writes_of_cover _ _ _ _ _ (accCover_first V c t _ _)
          iexact Hg
        isplitl [Ho]; · iexact Ho
        isplitl [H0]; · iexact H0
        isplitl [H1]; · iexact H1
        isplitl [H2]; · iexact H2
        isplitl [H3]; · iexact H3
        iexists _; iexact H4
      · -- the first point of a later row block: the accumulator as the row block before left it
        rw [PhiS_castSucc V c t, PhiS_pos V c _ _ hz0]
        iintro ⟨⟨⟨HR, HS⟩, Hg⟩, Ho, ⟨%d0, H0⟩, ⟨%d1, H1⟩, ⟨%d2, H2⟩, ⟨%d3, H3⟩, ⟨%d4, H4⟩⟩
        iapply ((firstAt V c t ((zeroes_iff t).mpr h0) (fun h => h1 ((emits_iff t).mp h))).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HR HS Hg]
        · isplitl [HR HS]
          · isplitl [HR]; · iexact HR
            unfold owns; iexists _; isplitr
            swap; · iexact HS
            ipureintro; exact View.read_writes_of_cover _ _ _ _ _ (accCover_first V c t _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · -- k = 7
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [show (dat2 V c).leavesExact 4 t = owns (c : Thread nD τ) (ms2_4 t) fullShare ((dat2 V c).after 4 t) from by
        unfold Dat.leavesExact; rw [live2_4_last t (fun h => h0 ((zeroes_iff t).mp h)) ((emits_iff t).mpr h1)], after2_4]
      rw [outsAt2_last V c t h0 h1]
      unfold outLast accLast; (try dsimp only)
      have hz0 : t.val ≠ 0 := fun e => h0 (by rw [e])
      · rw [PhiS_castSucc V c t, PhiS_pos V c _ _ hz0]
        iintro ⟨⟨⟨HR, HS⟩, Hg⟩, Ho, ⟨%d0, H0⟩, ⟨%d1, H1⟩, ⟨%d2, H2⟩, ⟨%d3, H3⟩, ⟨%d4, H4⟩⟩
        iapply ((lastAt V c t (fun h => h0 ((zeroes_iff t).mp h)) ((emits_iff t).mpr h1) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HR HS Hg]
        · isplitl [HR HS]
          · isplitl [HR]; · iexact HR
            unfold owns; iexists _; isplitr
            swap; · iexact HS
            ipureintro; exact View.read_writes_of_cover _ _ _ _ _ (accCover_last V c t _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outCover_last V c t _ _ _)
    · -- 0 < k < 7
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idle2_4_middle t (fun h => h0 ((zeroes_iff t).mp h)) (fun h => h1 ((emits_iff t).mp h))) (noFlush2_4_middle t (fun h => h0 ((zeroes_iff t).mp h)) (fun h => h1 ((emits_iff t).mp h)))]
      rw [outsAt2_middle V c t h0 h1]
      unfold accMiddle; (try dsimp only)
      have hz0 : t.val ≠ 0 := fun e => h0 (by rw [e])
      · rw [PhiS_castSucc V c t, PhiS_pos V c _ _ hz0]
        iintro ⟨⟨⟨HR, HS⟩, Hg⟩, Ho, ⟨%d0, H0⟩, ⟨%d1, H1⟩, ⟨%d2, H2⟩, ⟨%d3, H3⟩, ⟨%d4, H4⟩⟩
        iapply ((middleAt V c t (fun h => h0 ((zeroes_iff t).mp h)) (fun h => h1 ((emits_iff t).mp h)) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HR HS Hg]
        · isplitl [HR HS]
          · isplitl [HR]; · iexact HR
            unfold owns; iexists _; isplitr
            swap; · iexact HS
            ipureintro; exact View.read_writes_of_cover _ _ _ _ _ (accCover_middle V c t _ _ _)
          iexact Hg
        isplitl [Ho]; · iexact Ho
        isplitl [H0]; · iexact H0
        isplitl [H1]; · iexact H1
        isplitl [H2]; · iexact H2
        isplitl [H3]; · iexact H3
        iexists _; iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-! ## In and out of the region -/

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives it back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HR, HS⟩, Hg⟩
  isplitl [HR HS]
  · isplitl [HR]; · iexact HR
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.Kernel.MainRegion

end
-- ==== Proof.BitsRun.lean ====
/-
  (The program as printed, read at the word level: the same argument as for its idealization, which is the same text.)
  The run of @main: three kernel regions with two stretches of host operations between them.  After the main region
  the buffers outside the kernels' scopes hold `W5`; no item writes an argument, so each argument ends as launched.
-/
import proofs.«109137_j20117626815086_2_alg».proof.Proof.Gen.Kernel.Launch
import proofs.«109137_j20117626815086_2_alg».proof.Proof.Gen.Kernel.Skeleton
import proofs.«109137_j20117626815086_2_alg».proof.Proof.Gen.Kernel.Points
import proofs.«109137_j20117626815086_2_alg».proof.Proof.BitsRunEarly
import proofs.«109137_j20117626815086_2_alg».proof.Proof.BitsMainRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.DegreeRegion Cert.Kernel.SupportRegion Cert.Kernel.MainRegion

variable (m : (ℓ : Loc nD τ sig) → Buf (Elt F) ℓ) (ρ : Dev nD → PrngReg)

/-- After region 2. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of m c main_arg0 (by decide)
    _ = W2 m c (Proc.devRef .tc main_arg0) := (W3_arr m c 0).trans (((dat1 (V2 m) c).arrAt_in 0 rfl _).trans (A_eq1 (V2 m) c 0))
    _ = W1 m c (Proc.devRef .tc main_arg0) := W2_of m c main_arg0 (by decide)
    _ = W0 m c (Proc.devRef .tc main_arg0) := W1_of_ne m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := (W5_arr m c 0).trans (((dat2 (V4 m) c).arrAt_in 0 rfl _).trans (A_eq2 (V4 m) c 0))
    _ = W3 m c (Proc.devRef .tc main_arg1) := W4_of m c main_arg1 (by decide)
    _ = W2 m c (Proc.devRef .tc main_arg1) := W3_of_ne m c main_arg1 (by decide)
    _ = W1 m c (Proc.devRef .tc main_arg1) := W2_of m c main_arg1 (by decide)
    _ = W0 m c (Proc.devRef .tc main_arg1) := (W1_arr m c 0).trans (((dat0 (V0 m) c).arrAt_in 0 rfl _).trans (A_eq0 (V0 m) c 0))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of m c main_arg2 (by decide)
    _ = W2 m c (Proc.devRef .tc main_arg2) := (W3_arr m c 1).trans (((dat1 (V2 m) c).arrAt_in 1 rfl _).trans (A_eq1 (V2 m) c 1))
    _ = W1 m c (Proc.devRef .tc main_arg2) := W2_of m c main_arg2 (by decide)
    _ = W0 m c (Proc.devRef .tc main_arg2) := W1_of_ne m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the buffers outside the kernels' scopes, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every outside buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every outside buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every outside buffer at `W4`, left at `W5`; its invariant carries
    the scratch accumulator between points and is the class's at both ends. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m) c)
    unfold Pipeline.ΦA
    iintro ⟨Hp, -, Hr⟩
    isplitl [Hr]; · iexact Hr
    iexact Hp
  hout c := by
    rw [Pipeline.ownSems0_none]
    refine (hout2 (V4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]

theorem main_run (c : Dev nD) : main (F := F) c = Pipeline.Seg.run (segs m) :=
  main_segs adm (pdats m) () 𝒱₀ L lv _ _ (reg0 m) (reg1 m) (reg2 m) rfl rfl c

set_option backward.isDefEq.respectTransparency.types false in
/-- THE RUN: at the compiled mesh, from any memory with zero counters, every weakly fair execution of @main on the
    TensorCores terminates, nothing faulting, and in every final state each buffer outside the kernels' scopes holds
    the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Run

end
-- ==== Proof.DegreeRegion.lean ====
/-
  Region 0, the row-degree kernel: at grid point t (16 points) it loads a [512,8192] stripe of the adjacency, sums
  each row along the lanes and stores the [512,1] column of sums.  This module states, for any contents `V` of the
  buffers when the region is entered, what each window's staging buffer holds after the body at each point, proves
  the body's triple, and discharges the pipeline's body obligation.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.DegreeRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency stripe's staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x8192 := Rect.unit (s := S512x8192) ![0, 0] S512x8192.size inb_S512x8192_S512x8192_0_0
abbrev r0_1 : Rect S512x1 := Rect.unit (s := S512x1) ![0, 0] S512x1.size inb_S512x1_S512x1_0_0

/-- The column of row sums the body leaves in the output's staging buffer, from the stripe. -/
def out0_1 (x0 : Vec F S512x8192 .f32) : Vec F S512x1 .f32 :=
  View.canon [⟨r0_1, k0_pay1 (View.ld x0 r0_0)⟩]

/-- The one store covers the whole buffer. -/
theorem cover0_1 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

set_option maxHeartbeats 1000000 in
/-- The body on whole staging memrefs: the stripe's at `x0`, the output's at anything; it ends with the stripe's as
    it was and the output's at the column of row sums. -/
theorem sound_kernel0 (c : Dev nD) (E : Set ℕ) (i : grid0.Coords) (arg1 : Memref sig .tc .vmem S512x8192 .f32) (harg1 : arg1.IsWhole) (arg2 : Memref sig .tc .vmem S512x1 .f32) (harg2 : arg2.IsWhole)
    (x0 : Vec F S512x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_degree_kernel i arg1 harg1 arg2 harg2) K := by
  simp only [cc0_degree_kernel_eq_skeleton]; unfold cc0_degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t` the
    stripe's buffer at its block and the output's at that block's row sums; nothing owed, full shares, the class's
    invariant. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.DegreeRegion

end
-- ==== Proof.SupportRegion.lean ====
/-
  Region 1, the support kernel: at grid point t (8 points) it loads a [1024,512] block of the features, the whole
  [512,256] weight and a [1024,1] column of node scalings, multiplies features by weight, scales each row by its
  node's scaling and stores the [1024,256] block.  For any contents `V` of the buffers when the region is entered:
  what each window's staging buffer holds after the body at each point, the body's triple, and the pipeline's body
  obligation.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.SupportRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x512 := Rect.unit (s := S1024x512) ![0, 0] S1024x512.size inb_S1024x512_S1024x512_0_0
abbrev r1_1 : Rect S512x256 := Rect.unit (s := S512x256) ![0, 0] S512x256.size inb_S512x256_S512x256_0_0
abbrev r1_2 : Rect S1024x1 := Rect.unit (s := S1024x1) ![0, 0] S1024x1.size inb_S1024x1_S1024x1_0_0
abbrev r1_3 : Rect S1024x256 := Rect.unit (s := S1024x256) ![0, 0] S1024x256.size inb_S1024x256_S1024x256_0_0

/-- The scaled product the body leaves in the output's staging buffer, from the three input blocks. -/
def out1_3 (x0 : Vec F S1024x512 .f32) (x1 : Vec F S512x256 .f32) (x2 : Vec F S1024x1 .f32) : Vec F S1024x256 .bf16 :=
  View.canon [⟨r1_3, k1_pay1 (View.ld x0 r1_0) (View.ld x1 r1_1) (View.ld x2 r1_2)⟩]

/-- The one store covers the whole buffer. -/
theorem cover1_3 (p0 : Vec F S1024x256 .bf16) (y : S1024x256.Idx) :
    ∃ pc ∈ ([⟨r1_3, p0⟩] : List (View.Piece (Elt F) S1024x256 .bf16)), y ∈ pc.1.set :=
  View.cover_of_tiled [⟨r1_3, p0⟩] S1024x256.size (by rfl) y

set_option maxHeartbeats 1000000 in
/-- The body on whole staging memrefs: the inputs' at `x0 x1 x2`, the output's at anything; it ends with the inputs'
    as they were and the output's at the scaled product. -/
theorem sound_kernel1 (c : Dev nD) (E : Set ℕ) (i : grid1.Coords) (arg1 : Memref sig .tc .vmem S1024x512 .f32) (harg1 : arg1.IsWhole) (arg2 : Memref sig .tc .vmem S512x256 .f32) (harg2 : arg2.IsWhole)
    (arg3 : Memref sig .tc .vmem S1024x1 .f32) (harg3 : arg3.IsWhole) (arg4 : Memref sig .tc .vmem S1024x256 .bf16) (harg4 : arg4.IsWhole)
    (x0 : Vec F S1024x512 .f32) (x1 : Vec F S512x256 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_support_kernel i arg1 harg1 arg2 harg2 arg3 harg3 arg4 harg4) K := by
  simp only [cc1_support_kernel_eq_skeleton]; unfold cc1_support_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.SupportRegion

end
-- ==== Proof.RunEarly.lean ====
/-
  The buffer contents at the boundaries of @main before the main region: `W0` the launch memory; `W1` after the
  row-degree region; `W2` after the host operations that turn degrees into node scalings; `W3` after the support
  region; `W4` after the reshape of the bias.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import proofs.«109137_j20117626815086_2_alg».proof.Proof.Gen.KernelIdeal.Regions
import proofs.«109137_j20117626815086_2_alg».proof.Proof.DegreeRegion
import proofs.«109137_j20117626815086_2_alg».proof.Proof.SupportRegion
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.DegreeRegion Cert.KernelIdeal.SupportRegion

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => m (c, b)
abbrev V0 : (c : Dev nD) → (b : Ref sig .tc) → Buf (Elt F) ((c : Thread nD τ).loc b) := fun c b => W0 m c b
/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the first host stretch (region 1's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the second host stretch (region 2's entry). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-! ## A buffer no host operation writes keeps its contents across a host stretch -/

theorem W2_of (c : Dev nD) (r : Ref sig .tc) (h : r ∉ hostOps1_W) : W2 m c (Proc.devRef .tc r) = W1 m c (Proc.devRef .tc r) :=
  StableHlo.after_of_writes_sub hostOps1 _ hostOps1_writes h
theorem W4_of (c : Dev nD) (r : Ref sig .tc) (h : r ∉ hostOps2_W) : W4 m c (Proc.devRef .tc r) = W3 m c (Proc.devRef .tc r) :=
  StableHlo.after_of_writes_sub hostOps2 _ hostOps2_writes h

end Cert.KernelIdeal.Run

end
-- ==== Proof.MainCases.lean ====
/-
  Region 2, the propagation kernel, on an 8×8 grid: point t has coordinates (i, k) = (t / 8, t % 8).  For row block i
  it accumulates over k, in an f32 scratch of shape [1024,256], the products of the adjacency tile (i, k) with rows
  1024·k … of the scaled support; the scratch is zeroed when k = 0, and when k = 7 the output block i is computed
  from the scratch, rows 1024·i … of the scaled support, the column of node scalings and the bias row.

  This module holds what the three control cases of the body share: the two branch conditions with their closed
  forms over the grid, where the output window is idle and where it is written back, the staging and scratch memrefs
  the pipeline passes at a point, and the region invariant with the scratch singled out.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.MainRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The body zeroes the scratch accumulator: the condition of its first `scf.if`, the comparison `k = 0` as the
    kernel computes it from the grid coordinates. -/
abbrev zeroes (i : grid2.Coords) : Prop := (Scalar.cmpi .ne (Scalar.extui (Scalar.cmpi .eq (BitVec.ofNat 32 (i 1).val) 0#32)) 0#32) = 1#1
/-- It holds exactly at the points with k = 0. -/
theorem zeroes_iff : ∀ t : Fin cfg2.N, zeroes (grid2.coords t) ↔ t.val % 8 = 0 :=
  (by decide +kernel : ∀ t : Fin grid2.N, zeroes (grid2.coords t) ↔ t.val % 8 = 0)

/-- The body stores the output block: the condition of its second `scf.if`, the comparison `k = 7`. -/
abbrev emits (i : grid2.Coords) : Prop := k2_cond2 i = 1#1
/-- It holds exactly at the points with k = 7. -/
theorem emits_iff : ∀ t : Fin cfg2.N, emits (grid2.coords t) ↔ t.val % 8 = 7 :=
  (by decide +kernel : ∀ t : Fin grid2.N, emits (grid2.coords t) ↔ t.val % 8 = 7)

/-! ## Where the windows are idle, and where the output is written back -/

/-- The four input windows are never idle. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Where k = 0 the body stores nothing into the output window: it is idle there, -/
theorem idle2_4_first : ∀ t : Fin cfg2.N, zeroes (grid2.coords t) → ¬emits (grid2.coords t) → cfg2.idle 4 (grid2.coords t) = true := by decide +kernel
/-- and the pipeline does not write its block back. -/
theorem noFlush2_4_first : ∀ t : Fin cfg2.N, zeroes (grid2.coords t) → ¬emits (grid2.coords t) → (cfg2.win 4).flush t = false := by decide +kernel
/-- The same where 0 < k < 7. -/
theorem idle2_4_middle : ∀ t : Fin cfg2.N, ¬zeroes (grid2.coords t) → ¬emits (grid2.coords t) → cfg2.idle 4 (grid2.coords t) = true := by decide +kernel
theorem noFlush2_4_middle : ∀ t : Fin cfg2.N, ¬zeroes (grid2.coords t) → ¬emits (grid2.coords t) → (cfg2.win 4).flush t = false := by decide +kernel
/-- Where k = 7 the output window is live: the body stores its block. -/
theorem live2_4_last : ∀ t : Fin cfg2.N, ¬zeroes (grid2.coords t) → emits (grid2.coords t) → cfg2.idle 4 (grid2.coords t) = false := by decide +kernel

/-! ## The memrefs the body is called with -/

/-- Each window's current staging memref at point `t`, as the pipeline passes it, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .f32 := win2_4.stage (cfg2.slots t 4)
abbrev hs2_4 (t : Fin cfg2.N) : (ms2_4 t).IsWhole := hstage2_4 ((cfg2.slots t 4).cast nbuf2_4)
/-- The scratch accumulator: a whole scoped buffer of the kernel's own, passed beside the windows. -/
abbrev accM : Memref sig .tc .vmem S1024x256 .f32 := Memref.whole cc2_scratch0
/-- The view through which the accumulator's contents are stated. -/
abbrev accV : View sig .tc .vmem S1024x256 .f32 := accM.view
/-- One staging buffer of the output window, through which its contents are stated (what pieces written over
    anything read back as does not depend on the buffer once the pieces cover it). -/
abbrev outV : View sig .tc .vmem S1024x256 .f32 := (Memref.whole cc2_stg4_0 : Memref sig .tc .vmem S1024x256 .f32).view

/-! ## The region invariant, with the accumulator singled out -/

/-- The staging buffers of the two earlier regions: scoped buffers of the core that this region's body never touches,
    each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- What the launch hands the region and takes back: the earlier regions' staging buffers, the accumulator at some
    contents, and the generator register at some state. -/
theorem PhiA2_eq (c : Dev nD) :
    (Pipeline.ΦA spec2 c : sProp 𝕄)
      = iprop(iprop(otherStaging (F := F) c ∗ (∃ d, owns (c : Thread nD τ) accM fullShare d)) ∗ (∃ r, prngReg c r)) := by
  unfold Pipeline.ΦA otherStaging; rw [scopedRest2_eq]; simp only [accM, owns_whole]
  refine BI.equiv_iff.mp ⟨?_, ?_⟩
  · show (_ : sProp 𝕄) ⊢ (_ : sProp 𝕄)
    iintro ⟨⟨R0, R1, R2, R3, R4, R5, R6, R7, R8, R9, R10, HS⟩, Hg⟩
    iframe
  · show (_ : sProp 𝕄) ⊢ (_ : sProp 𝕄)
    iintro ⟨⟨⟨R0, R1, R2, R3, R4, R5, R6, R7, R8, R9, R10⟩, HS⟩, Hg⟩
    iframe

end Cert.KernelIdeal.MainRegion

end
-- ==== Proof.MainRunFirst.lean ====
/-
  Region 2's body where k = 0 (the accumulator is zeroed, no output block is stored): its triple on whole staging
  memrefs, with the pieces its stores leave in the accumulator found by running it.
-/
import proofs.«109137_j20117626815086_2_alg».proof.Proof.MainCases

set_option maxRecDepth 16384

noncomputable section

namespace Cert.KernelIdeal.MainRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE k = 0.  On whole memrefs — the four inputs' at contents `x0 … x3`, the output's at contents `xi4`
    that it hands back untouched, the accumulator's at anything — the body runs to a continuation that holds the inputs'
    and the output's as they were and the accumulator with the pieces `LS` of its two stores (the zeroing, then the
    first product added) written.  The pieces are the witness the run finds; the output gets none. -/
noncomputable def runFirst (c : Dev nD) (i : grid2.Coords) (arg2 : Memref sig .tc .vmem S1024x1024 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hz : zeroes i) (he : ¬emits i)
    (x0 : Vec F S1024x1024 .f32) (x1 : Vec F S8192x256 .bf16) (x2 : Vec F S1024x1 .f32) (x3 : Vec F S1x256 .f32) :
    Σ' (L4 : List (View.Piece (Elt F) S1024x256 .f32)), { LS : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2_main_kernel i arg2 harg2 arg3 harg3 arg4 harg4 arg5 harg5 arg6 harg6 arg7 harg7) K } := by
  refine ⟨[], ?_, fun xi4 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.MainRegion

end
-- ==== Proof.MainRunMiddle.lean ====
/-
  Region 2's body where 0 < k < 7 (one more product is added to the accumulator, no output block is stored): its
  triple on whole staging memrefs, with the piece its store leaves in the accumulator found by running it.
-/
import proofs.«109137_j20117626815086_2_alg».proof.Proof.MainRunFirst

set_option maxRecDepth 16384

noncomputable section

namespace Cert.KernelIdeal.MainRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE 0 < k < 7.  On whole memrefs — the four inputs' at contents `x0 … x3`, the output's at contents
    `xi4` that it hands back untouched, the accumulator's at the contents `xs` the point before left — the body runs
    to a continuation that holds the inputs' and the output's as they were and the accumulator with the piece `LS` of
    its one store (the product of the adjacency tile with its rows of the support, added to `xs`) written.  The piece
    is the witness the run finds; the output gets none. -/
noncomputable def runMiddle (c : Dev nD) (i : grid2.Coords) (arg2 : Memref sig .tc .vmem S1024x1024 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hz : ¬zeroes i) (he : ¬emits i)
    (x0 : Vec F S1024x1024 .f32) (x1 : Vec F S8192x256 .bf16) (x2 : Vec F S1024x1 .f32) (x3 : Vec F S1x256 .f32) (xs : Vec F S1024x256 .f32) :
    Σ' (L4 : List (View.Piece (Elt F) S1024x256 .f32)), { LS : List (View.Piece (Elt F) S1024x256 .f32) //
      ∀ (xi4 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2_main_kernel i arg2 harg2 arg3 harg3 arg4 harg4 arg5 harg5 arg6 harg6 arg7 harg7) K } := by
  refine ⟨[], ?_, fun xi4 E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.MainRegion

end
-- ==== Proof.MainRunLast.lean ====
/-
  Region 2's body where k = 7 (the last product is added to the accumulator and the output block is computed from
  it): its triple on whole staging memrefs, with the pieces its stores leave in the accumulator and in the output's
  buffer found by running it.
-/
import proofs.«109137_j20117626815086_2_alg».proof.Proof.MainRunMiddle

set_option maxRecDepth 16384

noncomputable section

namespace Cert.KernelIdeal.MainRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE BODY WHERE k = 7.  On whole memrefs — the four inputs' at contents `x0 … x3`, the output's at anything, the
    accumulator's at the contents `xs` the point before left — the body runs to a continuation that holds the inputs'
    as they were, the accumulator with the piece `LS` of its store (the last product added to `xs`) written, and the
    output's buffer with the piece `L4` of its store (the block computed from the finished accumulator, rows of the
    support, the node scalings and the bias) written.  The pieces are the witnesses the run finds. -/
noncomputable def runLast (c : Dev nD) (i : grid2.Coords) (arg2 : Memref sig .tc .vmem S1024x1024 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (hz : ¬zeroes i) (he : emits i)
    (x0 : Vec F S1024x1024 .f32) (x1 : Vec F S8192x256 .bf16) (x2 : Vec F S1024x1 .f32) (x3 : Vec F S1x256 .f32) (xs : Vec F S1024x256 .f32) :
    Σ' (L4 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc2_main_kernel i arg2 harg2 arg3 harg3 arg4 harg4 arg5 harg5 arg6 harg6 arg7 harg7) K } := by
  refine ⟨?_, ?_, fun E K => ?run⟩
  case run =>
    simp only [cc2_main_kernel_eq_skeleton]; unfold cc2_main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hz | exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.MainRegion

end
-- ==== Proof.MainRegion.lean ====
/-
  Region 2, the propagation kernel: what the output's staging buffer and the scratch accumulator hold after the body
  at each of the 64 grid points, for any contents `V` of the buffers when the region is entered; the pipeline's proof
  data over `V`, whose invariant carries the accumulator from one point to the next; the body obligation; and that the
  invariant starts from, and gives back, what the launch hands the region.

  At point t = 8·i + k the accumulator holds the sum over k' ≤ k of the products of adjacency tile (i, k') with rows
  1024·k' … of the scaled support, built up one product a point from zero at k = 0; the output's buffer is stored only
  at k = 7, from the finished accumulator, and is idle (handed back as found, not written back) at the other points.
-/
import proofs.«109137_j20117626815086_2_alg».proof.Proof.MainRunLast

set_option maxRecDepth 16384

noncomputable section

namespace Cert.KernelIdeal.MainRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's current staging buffer holds its block at every point, fetched there or not (the adjacency tile is
    fetched at every point, the node scalings when k = 0, the support and the bias at the first point only: where a
    window is not fetched its block index has not moved), for any proof data over `V` whose body leaves the block in
    place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The three runs at a grid point -/

/-- The run where k = 0, at point `t`: on the memrefs the pipeline passes there and the windows' blocks. -/
abbrev firstAt (c : Dev nD) (t : Fin cfg2.N) (hz : zeroes (grid2.coords t)) (he : ¬emits (grid2.coords t)) :=
  runFirst (F := F) c (grid2.coords t) (ms2_0 t) (hs2_0 t) (ms2_1 t) (hs2_1 t) (ms2_2 t) (hs2_2 t) (ms2_3 t) (hs2_3 t) (ms2_4 t) (hs2_4 t) accM (Memref.isWhole_whole _) hz he (iblk2 V c 0 t) (iblk2 V c 1 t) (iblk2 V c 2 t) (iblk2 V c 3 t)
/-- The run where 0 < k < 7, at point `t`, the accumulator at `xs`. -/
abbrev middleAt (c : Dev nD) (t : Fin cfg2.N) (hz : ¬zeroes (grid2.coords t)) (he : ¬emits (grid2.coords t)) (xs : Vec F S1024x256 .f32) :=
  runMiddle (F := F) c (grid2.coords t) (ms2_0 t) (hs2_0 t) (ms2_1 t) (hs2_1 t) (ms2_2 t) (hs2_2 t) (ms2_3 t) (hs2_3 t) (ms2_4 t) (hs2_4 t) accM (Memref.isWhole_whole _) hz he (iblk2 V c 0 t) (iblk2 V c 1 t) (iblk2 V c 2 t) (iblk2 V c 3 t) xs
/-- The run where k = 7, at point `t`, the accumulator at `xs`. -/
abbrev lastAt (c : Dev nD) (t : Fin cfg2.N) (hz : ¬zeroes (grid2.coords t)) (he : emits (grid2.coords t)) (xs : Vec F S1024x256 .f32) :=
  runLast (F := F) c (grid2.coords t) (ms2_0 t) (hs2_0 t) (ms2_1 t) (hs2_1 t) (ms2_2 t) (hs2_2 t) (ms2_3 t) (hs2_3 t) (ms2_4 t) (hs2_4 t) accM (Memref.isWhole_whole _) hz he (iblk2 V c 0 t) (iblk2 V c 1 t) (iblk2 V c 2 t) (iblk2 V c 3 t) xs

/-! ## What each run leaves: the pieces cover, and read back -/

/-- Where k = 0 the accumulator's two whole-buffer stores cover it. -/
theorem accCover_first (c : Dev nD) (t : Fin cfg2.N) (hz : zeroes (grid2.coords t)) (he : ¬emits (grid2.coords t)) (y : S1024x256.Idx) :
    ∃ pc ∈ (firstAt V c t hz he).2.1, y ∈ pc.1.set :=
  View.cover_of_tiledL (firstAt V c t hz he).2.1 S1024x256.size (by sl_kernel_rfl) y
/-- What the run where k = 0 leaves in the accumulator: its pieces read back. -/
def accFirst (c : Dev nD) (t : Fin cfg2.N) (hz : zeroes (grid2.coords t)) (he : ¬emits (grid2.coords t)) : Vec F S1024x256 .f32 :=
  accV.read (Elt F) (accV.writes (Elt F) accV.junk (firstAt V c t hz he).2.1)
/-- It stores nothing into the output's buffer: a placeholder that nothing consults, the window being neither written
    back there nor read at the next point. -/
def outFirst (c : Dev nD) (t : Fin cfg2.N) (hz : zeroes (grid2.coords t)) (he : ¬emits (grid2.coords t)) : Vec F S1024x256 .f32 :=
  outV.read (Elt F) (outV.writes (Elt F) outV.junk (firstAt V c t hz he).1)

/-- Where 0 < k < 7 the accumulator's one whole-buffer store covers it. -/
theorem accCover_middle (c : Dev nD) (t : Fin cfg2.N) (hz : ¬zeroes (grid2.coords t)) (he : ¬emits (grid2.coords t)) (xs : Vec F S1024x256 .f32) (y : S1024x256.Idx) :
    ∃ pc ∈ (middleAt V c t hz he xs).2.1, y ∈ pc.1.set :=
  View.cover_of_tiledL (middleAt V c t hz he xs).2.1 S1024x256.size (by sl_kernel_rfl) y
/-- What the run where 0 < k < 7 leaves in the accumulator. -/
def accMiddle (c : Dev nD) (t : Fin cfg2.N) (hz : ¬zeroes (grid2.coords t)) (he : ¬emits (grid2.coords t)) (xs : Vec F S1024x256 .f32) : Vec F S1024x256 .f32 :=
  accV.read (Elt F) (accV.writes (Elt F) accV.junk (middleAt V c t hz he xs).2.1)
/-- It stores nothing into the output's buffer either: the same placeholder. -/
def outMiddle (c : Dev nD) (t : Fin cfg2.N) (hz : ¬zeroes (grid2.coords t)) (he : ¬emits (grid2.coords t)) (xs : Vec F S1024x256 .f32) : Vec F S1024x256 .f32 :=
  outV.read (Elt F) (outV.writes (Elt F) outV.junk (middleAt V c t hz he xs).1)

/-- Where k = 7 the accumulator's one whole-buffer store covers it, -/
theorem accCover_last (c : Dev nD) (t : Fin cfg2.N) (hz : ¬zeroes (grid2.coords t)) (he : emits (grid2.coords t)) (xs : Vec F S1024x256 .f32) (y : S1024x256.Idx) :
    ∃ pc ∈ (lastAt V c t hz he xs).2.1, y ∈ pc.1.set :=
  View.cover_of_tiledL (lastAt V c t hz he xs).2.1 S1024x256.size (by sl_kernel_rfl) y
/-- and the output's one whole-block store covers its buffer. -/
theorem outCover_last (c : Dev nD) (t : Fin cfg2.N) (hz : ¬zeroes (grid2.coords t)) (he : emits (grid2.coords t)) (xs : Vec F S1024x256 .f32) (y : S1024x256.Idx) :
    ∃ pc ∈ (lastAt V c t hz he xs).1, y ∈ pc.1.set :=
  View.cover_of_tiledL (lastAt V c t hz he xs).1 S1024x256.size (by sl_kernel_rfl) y
/-- What the run where k = 7 leaves in the accumulator, -/
def accLast (c : Dev nD) (t : Fin cfg2.N) (hz : ¬zeroes (grid2.coords t)) (he : emits (grid2.coords t)) (xs : Vec F S1024x256 .f32) : Vec F S1024x256 .f32 :=
  accV.read (Elt F) (accV.writes (Elt F) accV.junk (lastAt V c t hz he xs).2.1)
/-- and in the output's buffer: the finished block. -/
def outLast (c : Dev nD) (t : Fin cfg2.N) (hz : ¬zeroes (grid2.coords t)) (he : emits (grid2.coords t)) (xs : Vec F S1024x256 .f32) : Vec F S1024x256 .f32 :=
  outV.read (Elt F) (outV.writes (Elt F) outV.junk (lastAt V c t hz he xs).1)

/-- Read back, covering pieces are their canonical form: the last piece that contains an index decides it. -/
theorem accFirst_eq_canon (c : Dev nD) (t : Fin cfg2.N) (hz : zeroes (grid2.coords t)) (he : ¬emits (grid2.coords t)) :
    accFirst V c t hz he = View.canon (firstAt V c t hz he).2.1 :=
  View.read_writes_eq_canon _ _ _ (accCover_first V c t hz he)
theorem accMiddle_eq_canon (c : Dev nD) (t : Fin cfg2.N) (hz : ¬zeroes (grid2.coords t)) (he : ¬emits (grid2.coords t)) (xs : Vec F S1024x256 .f32) :
    accMiddle V c t hz he xs = View.canon (middleAt V c t hz he xs).2.1 :=
  View.read_writes_eq_canon _ _ _ (accCover_middle V c t hz he xs)
theorem accLast_eq_canon (c : Dev nD) (t : Fin cfg2.N) (hz : ¬zeroes (grid2.coords t)) (he : emits (grid2.coords t)) (xs : Vec F S1024x256 .f32) :
    accLast V c t hz he xs = View.canon (lastAt V c t hz he xs).2.1 :=
  View.read_writes_eq_canon _ _ _ (accCover_last V c t hz he xs)
theorem outLast_eq_canon (c : Dev nD) (t : Fin cfg2.N) (hz : ¬zeroes (grid2.coords t)) (he : emits (grid2.coords t)) (xs : Vec F S1024x256 .f32) :
    outLast V c t hz he xs = View.canon (lastAt V c t hz he xs).1 :=
  View.read_writes_eq_canon _ _ _ (outCover_last V c t hz he xs)

/-! ## What the output's buffer and the accumulator hold after each point -/

/-- THE ACCUMULATION.  The pair (output's staging buffer, accumulator) after the body at position `n`: the run the
    closed forms select there, at the point's memrefs and input blocks, the accumulator where it is read before
    being stored (k > 0) at what position `n - 1` left in it.  The two conditions never hold together. -/
def outsAt2 (c : Dev nD) : (n : ℕ) → n < cfg2.N → Vec F S1024x256 .f32 × Vec F S1024x256 .f32
  | 0, hn =>
    (outFirst V c ⟨0, hn⟩ ((zeroes_iff ⟨0, hn⟩).mpr (Nat.zero_mod _)) (fun h => (fun h => by (try dsimp only at h); omega) ((emits_iff ⟨0, hn⟩).mp h)),
     accFirst V c ⟨0, hn⟩ ((zeroes_iff ⟨0, hn⟩).mpr (Nat.zero_mod _)) (fun h => (fun h => by (try dsimp only at h); omega) ((emits_iff ⟨0, hn⟩).mp h)))
  | n + 1, hn =>
    if h0 : (n + 1) % 8 = 0 then
      if h1 : (n + 1) % 8 = 7 then
        False.elim (by omega)
      else
        (outFirst V c ⟨n + 1, hn⟩ ((zeroes_iff ⟨n + 1, hn⟩).mpr h0) (fun h => h1 ((emits_iff ⟨n + 1, hn⟩).mp h)),
         accFirst V c ⟨n + 1, hn⟩ ((zeroes_iff ⟨n + 1, hn⟩).mpr h0) (fun h => h1 ((emits_iff ⟨n + 1, hn⟩).mp h)))
    else
      if h1 : (n + 1) % 8 = 7 then
        (outLast V c ⟨n + 1, hn⟩ (fun h => h0 ((zeroes_iff ⟨n + 1, hn⟩).mp h)) ((emits_iff ⟨n + 1, hn⟩).mpr h1) (outsAt2 c n (Nat.lt_of_succ_lt hn)).2,
         accLast V c ⟨n + 1, hn⟩ (fun h => h0 ((zeroes_iff ⟨n + 1, hn⟩).mp h)) ((emits_iff ⟨n + 1, hn⟩).mpr h1) (outsAt2 c n (Nat.lt_of_succ_lt hn)).2)
      else
        (outMiddle V c ⟨n + 1, hn⟩ (fun h => h0 ((zeroes_iff ⟨n + 1, hn⟩).mp h)) (fun h => h1 ((emits_iff ⟨n + 1, hn⟩).mp h)) (outsAt2 c n (Nat.lt_of_succ_lt hn)).2,
         accMiddle V c ⟨n + 1, hn⟩ (fun h => h0 ((zeroes_iff ⟨n + 1, hn⟩).mp h)) (fun h => h1 ((emits_iff ⟨n + 1, hn⟩).mp h)) (outsAt2 c n (Nat.lt_of_succ_lt hn)).2)

/-- At a point with k = 0: the zeroed accumulator plus the first product; the output's buffer untouched. -/
theorem outsAt2_first (c : Dev nD) (t : Fin cfg2.N) (h0 : t.val % 8 = 0) (h1 : ¬t.val % 8 = 7) :
    outsAt2 V c t.val t.isLt = (outFirst V c t ((zeroes_iff t).mpr h0) (fun h => h1 ((emits_iff t).mp h)), accFirst V c t ((zeroes_iff t).mpr h0) (fun h => h1 ((emits_iff t).mp h))) := by
  obtain ⟨n, hn⟩ := t
  cases n with
  | zero => exact rfl
  | succ n => exact (dif_pos h0).trans ((dif_neg h1).trans rfl)

/-- At a point with 0 < k < 7: one more product added to what the point before left; the output's buffer untouched. -/
theorem outsAt2_middle (c : Dev nD) (t : Fin cfg2.N) (h0 : ¬t.val % 8 = 0) (h1 : ¬t.val % 8 = 7) :
    outsAt2 V c t.val t.isLt = (outMiddle V c t (fun h => h0 ((zeroes_iff t).mp h)) (fun h => h1 ((emits_iff t).mp h)) (outsAt2 V c (t.val - 1) (Nat.lt_of_le_of_lt (Nat.sub_le _ _) t.isLt)).2, accMiddle V c t (fun h => h0 ((zeroes_iff t).mp h)) (fun h => h1 ((emits_iff t).mp h)) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: the last product added to what the point before left, and the output block from the sum. -/
theorem outsAt2_last (c : Dev nD) (t : Fin cfg2.N) (h0 : ¬t.val % 8 = 0) (h1 : t.val % 8 = 7) :
    outsAt2 V c t.val t.isLt = (outLast V c t (fun h => h0 ((zeroes_iff t).mp h)) ((emits_iff t).mpr h1) (outsAt2 V c (t.val - 1) (Nat.lt_of_le_of_lt (Nat.sub_le _ _) t.isLt)).2, accLast V c t (fun h => h0 ((zeroes_iff t).mp h)) ((emits_iff t).mpr h1) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- The region invariant before position `n`: before the first point what the launch hands over (the accumulator at
    anything); afterwards the same with the accumulator at what the point before left in it. -/
def PhiS (c : Dev nD) : (n : ℕ) → n ≤ cfg2.N → sProp 𝕄
  | 0, _ => Pipeline.ΦA spec2 c
  | n + 1, hn => iprop(iprop(otherStaging (F := F) c ∗ owns (c : Thread nD τ) accM fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

/-- After point `n`: the accumulator at that point's contents. -/
theorem PhiS_succ (c : Dev nD) (n : ℕ) (hn : n < cfg2.N) :
    PhiS V c (n + 1) hn = iprop(iprop(otherStaging (F := F) c ∗ owns (c : Thread nD τ) accM fullShare ((outsAt2 V c n hn).2)) ∗ (∃ r, prngReg c r)) := rfl

/-- Before a point that is not the first: the accumulator at what the point before left. -/
theorem PhiS_pos (c : Dev nD) (n : ℕ) (h : n ≤ cfg2.N) (hz : n ≠ 0) :
    PhiS V c n h = iprop(iprop(otherStaging (F := F) c ∗ owns (c : Thread nD τ) accM fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant `PhiS`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point.  The inputs' memrefs hold their blocks; the closed forms say which of the three runs the
    point takes; the invariant hands the run the accumulator (at anything at the first point, else at what the point
    before left) and takes it back at this point's contents, the pieces covering it; where k < 7 the output's buffer
    goes through untouched, where k = 7 it comes back at the block the pieces of its store cover; the earlier regions'
    staging buffers, the generator register and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 64 := lt_of_lt_of_eq t.isLt (show cfg2.N = 64 from N_2)
  by_cases h0 : t.val % 8 = 0
  · by_cases h1 : t.val % 8 = 7
    · exfalso; omega
    · -- k = 0
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idle2_4_first t ((zeroes_iff t).mpr h0) (fun h => h1 ((emits_iff t).mp h))) (noFlush2_4_first t ((zeroes_iff t).mpr h0) (fun h => h1 ((emits_iff t).mp h)))]
      rw [outsAt2_first V c t h0 h1]
      unfold accFirst; (try dsimp only)
      by_cases hz0 : t.val = 0
      · -- the region's first point: the accumulator as the launch left it
        rw [PhiS_castSucc V c t, PhiS_zero V c _ _ hz0, PhiA2_eq]
        iintro ⟨⟨⟨HR, HS⟩, Hg⟩, Ho, ⟨%d0, H0⟩, ⟨%d1, H1⟩, ⟨%d2, H2⟩, ⟨%d3, H3⟩, ⟨%d4, H4⟩⟩
        iapply ((firstAt V c t ((zeroes_iff t).mpr h0) (fun h => h1 ((emits_iff t).mp h))).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HR HS Hg]
        · isplitl [HR HS]
          · isplitl [HR]; · iexact HR
            unfold owns; iexists _; isplitr
            swap; · iexact HS
            ipureintro; exact View.read_writes_of_cover _ _ _ _ _ (accCover_first V c t _ _)
          iexact Hg
        isplitl [Ho]; · iexact Ho
        isplitl [H0]; · iexact H0
        isplitl [H1]; · iexact H1
        isplitl [H2]; · iexact H2
        isplitl [H3]; · iexact H3
        iexists _; iexact H4
      · -- the first point of a later row block: the accumulator as the row block before left it
        rw [PhiS_castSucc V c t, PhiS_pos V c _ _ hz0]
        iintro ⟨⟨⟨HR, HS⟩, Hg⟩, Ho, ⟨%d0, H0⟩, ⟨%d1, H1⟩, ⟨%d2, H2⟩, ⟨%d3, H3⟩, ⟨%d4, H4⟩⟩
        iapply ((firstAt V c t ((zeroes_iff t).mpr h0) (fun h => h1 ((emits_iff t).mp h))).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HR HS Hg]
        · isplitl [HR HS]
          · isplitl [HR]; · iexact HR
            unfold owns; iexists _; isplitr
            swap; · iexact HS
            ipureintro; exact View.read_writes_of_cover _ _ _ _ _ (accCover_first V c t _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · -- k = 7
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [show (dat2 V c).leavesExact 4 t = owns (c : Thread nD τ) (ms2_4 t) fullShare ((dat2 V c).after 4 t) from by
        unfold Dat.leavesExact; rw [live2_4_last t (fun h => h0 ((zeroes_iff t).mp h)) ((emits_iff t).mpr h1)], after2_4]
      rw [outsAt2_last V c t h0 h1]
      unfold outLast accLast; (try dsimp only)
      have hz0 : t.val ≠ 0 := fun e => h0 (by rw [e])
      · rw [PhiS_castSucc V c t, PhiS_pos V c _ _ hz0]
        iintro ⟨⟨⟨HR, HS⟩, Hg⟩, Ho, ⟨%d0, H0⟩, ⟨%d1, H1⟩, ⟨%d2, H2⟩, ⟨%d3, H3⟩, ⟨%d4, H4⟩⟩
        iapply ((lastAt V c t (fun h => h0 ((zeroes_iff t).mp h)) ((emits_iff t).mpr h1) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HR HS Hg]
        · isplitl [HR HS]
          · isplitl [HR]; · iexact HR
            unfold owns; iexists _; isplitr
            swap; · iexact HS
            ipureintro; exact View.read_writes_of_cover _ _ _ _ _ (accCover_last V c t _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outCover_last V c t _ _ _)
    · -- 0 < k < 7
      rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t], after2_3]
      rw [Dat.leavesExact_idle (dat2 V c) 4 t (idle2_4_middle t (fun h => h0 ((zeroes_iff t).mp h)) (fun h => h1 ((emits_iff t).mp h))) (noFlush2_4_middle t (fun h => h0 ((zeroes_iff t).mp h)) (fun h => h1 ((emits_iff t).mp h)))]
      rw [outsAt2_middle V c t h0 h1]
      unfold accMiddle; (try dsimp only)
      have hz0 : t.val ≠ 0 := fun e => h0 (by rw [e])
      · rw [PhiS_castSucc V c t, PhiS_pos V c _ _ hz0]
        iintro ⟨⟨⟨HR, HS⟩, Hg⟩, Ho, ⟨%d0, H0⟩, ⟨%d1, H1⟩, ⟨%d2, H2⟩, ⟨%d3, H3⟩, ⟨%d4, H4⟩⟩
        iapply ((middleAt V c t (fun h => h0 ((zeroes_iff t).mp h)) (fun h => h1 ((emits_iff t).mp h)) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HR HS Hg]
        · isplitl [HR HS]
          · isplitl [HR]; · iexact HR
            unfold owns; iexists _; isplitr
            swap; · iexact HS
            ipureintro; exact View.read_writes_of_cover _ _ _ _ _ (accCover_middle V c t _ _ _)
          iexact Hg
        isplitl [Ho]; · iexact Ho
        isplitl [H0]; · iexact H0
        isplitl [H1]; · iexact H1
        isplitl [H2]; · iexact H2
        isplitl [H3]; · iexact H3
        iexists _; iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-! ## In and out of the region -/

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives it back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HR, HS⟩, Hg⟩
  isplitl [HR HS]
  · isplitl [HR]; · iexact HR
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Cert.KernelIdeal.MainRegion

end
-- ==== Proof.Run.lean ====
/-
  The run of @main: three kernel regions with two stretches of host operations between them.  After the main region
  the buffers outside the kernels' scopes hold `W5`; no item writes an argument, so each argument ends as launched.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import proofs.«109137_j20117626815086_2_alg».proof.Proof.RunEarly
import proofs.«109137_j20117626815086_2_alg».proof.Proof.MainRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.DegreeRegion Cert.KernelIdeal.SupportRegion Cert.KernelIdeal.MainRegion

variable (m : (ℓ : Loc nD τ sig) → Buf (Elt F) ℓ) (ρ : Dev nD → PrngReg)

/-- After region 2. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of m c main_arg0 (by decide)
    _ = W2 m c (Proc.devRef .tc main_arg0) := (W3_arr m c 0).trans (((dat1 (V2 m) c).arrAt_in 0 rfl _).trans (A_eq1 (V2 m) c 0))
    _ = W1 m c (Proc.devRef .tc main_arg0) := W2_of m c main_arg0 (by decide)
    _ = W0 m c (Proc.devRef .tc main_arg0) := W1_of_ne m c main_arg0 (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := (W5_arr m c 0).trans (((dat2 (V4 m) c).arrAt_in 0 rfl _).trans (A_eq2 (V4 m) c 0))
    _ = W3 m c (Proc.devRef .tc main_arg1) := W4_of m c main_arg1 (by decide)
    _ = W2 m c (Proc.devRef .tc main_arg1) := W3_of_ne m c main_arg1 (by decide)
    _ = W1 m c (Proc.devRef .tc main_arg1) := W2_of m c main_arg1 (by decide)
    _ = W0 m c (Proc.devRef .tc main_arg1) := (W1_arr m c 0).trans (((dat0 (V0 m) c).arrAt_in 0 rfl _).trans (A_eq0 (V0 m) c 0))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of m c main_arg2 (by decide)
    _ = W2 m c (Proc.devRef .tc main_arg2) := (W3_arr m c 1).trans (((dat1 (V2 m) c).arrAt_in 1 rfl _).trans (A_eq1 (V2 m) c 1))
    _ = W1 m c (Proc.devRef .tc main_arg2) := W2_of m c main_arg2 (by decide)
    _ = W0 m c (Proc.devRef .tc main_arg2) := W1_of_ne m c main_arg2 (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the buffers outside the kernels' scopes, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every outside buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every outside buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every outside buffer at `W4`, left at `W5`; its invariant carries
    the scratch accumulator between points and is the class's at both ends. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m) c)
    unfold Pipeline.ΦA
    iintro ⟨Hp, -, Hr⟩
    isplitl [Hr]; · iexact Hr
    iexact Hp
  hout c := by
    rw [Pipeline.ownSems0_none]
    refine (hout2 (V4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m) ]

theorem main_run (c : Dev nD) : main (F := F) c = Pipeline.Seg.run (segs m) :=
  main_segs adm (pdats m) () 𝒱₀ L lv _ _ (reg0 m) (reg1 m) (reg2 m) rfl rfl c

set_option backward.isDefEq.respectTransparency.types false in
/-- THE RUN: at the compiled mesh, from any memory with zero counters, every weakly fair execution of @main on the
    TensorCores terminates, nothing faulting, and in every final state each buffer outside the kernels' scopes holds
    the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Run

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«109137_j20117626815086_2_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.DegreeValue.lean ====
/-
  What the row-degree region leaves in its output array, at the exact instance: entry (r, 0) of the [8192,1] result
  is the sum over c of the adjacency's entries (r, c).  Point t of the 16 writes back rows 512·t … 512·t + 511; the
  blocks tile the column.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import proofs.«109137_j20117626815086_2_alg».proof.Proof.DegreeRegion
import proofs.«109137_j20117626815086_2_alg».proof.Proof.LibRowSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DegreeValue

open Cert.KernelIdeal Cert.KernelIdeal.Gen Cert.KernelIdeal.DegreeRegion
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The column of row sums of a square matrix. -/
def rowSums (a : S8192x8192.Idx → EReal) : S8192x1.Idx → EReal := fun i => ∑ k : Fin 8192, a (ix2 (i 0) k)

/-- The lane sum kept as a column, at row p: the sum of the stripe's row p. -/
theorem pay_apply (x0 : Vec Ideal S512x8192 .f32) (p : Fin 512) (u : Fin 1) :
    k0_pay1 x0 (ix2 p u) = ∑ k : Fin 8192, x0 (ix2 p k) := by
  unfold k0_pay1
  exact Cert.LibRowSums.laneSum_apply x0 _ _ _ _ _ p u

/-- The printed index maps over the grid: the stripe and the output column move together along the rows, point t at
    block t; the stripe spans all columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row p of point t's stripe, summed, is the row sum at the output block's row p. -/
theorem block_eq (A : S8192x8192.Idx → EReal) (t : Fin cfg0.N) (p : Fin 512) (u : Fin 1) :
    (∑ k : Fin 8192, A (((cfg0.win 0).blk t).view.emb (ix2 p k))) = rowSums A (((cfg0.win 1).blk t).view.emb (ix2 p u)) := by
  obtain ⟨e0, e1, e2, e3⟩ := idx_facts t
  show _ = ∑ k : Fin 8192, A (ix2 ((((cfg0.win 1).blk t).view.emb (ix2 p u)) 0) k)
  refine Finset.sum_congr rfl fun k _ => congrArg A ?_
  funext a; apply Fin.ext
  match a with
  | ⟨0, _⟩ => show win0_0.index t (0 : Fin 2) * 512 + 1 * p.val = win0_1.index t (0 : Fin 2) * 512 + 1 * p.val; omega
  | ⟨1, _⟩ => show win0_0.index t (1 : Fin 2) * 8192 + 1 * k.val = k.val; omega

/-- What point t writes back is block t of the column of row sums of the adjacency as the region finds it. -/
theorem flushed_eq (c : Dev nD) (t : Fin cfg0.N) :
    (dat0 V c).flushed 1 t = ((cfg0.win 1).blk t).view.read (Elt Ideal) (rowSums (V c main_arg1)) := by
  show (cfg0.win 1).cut (grid0.coords t) ((dat0 V c).after 1 t) = _
  rw [after0_1]
  unfold out0_1
  rw [View.canon_unit_zero hz]
  simp only [View.ld_unit_zero (S := S512x8192) hz]
  funext j
  obtain ⟨p, u, rfl⟩ : ∃ (p : Fin 512) (u : Fin 1), j = ix2 p u := ⟨j 0, j 1, eq_ix2 j⟩
  refine (pay_apply _ p u).trans ?_
  exact block_eq (V c main_arg1) t p u

/-- An index of the column is in point t's block iff each coordinate is in the block's range on its axis. -/
theorem mem_blk (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every row of the column is in some point's block: row r in block r / 512. -/
theorem cover (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  refine ⟨⟨(i 0).val / 512, by rw [show cfg0.N = 16 from N_0]; omega⟩, flush0_1 _, ?_⟩
  rw [mem_blk]
  obtain ⟨e0, e1, e2, e3⟩ := idx_facts ⟨(i 0).val / 512, by rw [show cfg0.N = 16 from N_0]; omega⟩
  intro a
  match a with
  | ⟨0, _⟩ => show win0_1.index _ (0 : Fin 2) * 512 ≤ (i 0).val ∧ (i 0).val < win0_1.index _ (0 : Fin 2) * 512 + 512; rw [e2]; show (i 0).val / 512 * 512 ≤ _ ∧ _ < (i 0).val / 512 * 512 + 512; omega
  | ⟨1, _⟩ => show win0_1.index _ (1 : Fin 2) * 1 ≤ (i 1).val ∧ (i 1).val < win0_1.index _ (1 : Fin 2) * 1 + 1; rw [e3]; omega

/-- The output array after the region: the column of row sums of the adjacency as the region finds it. -/
theorem final (c : Dev nD) : (dat0 V c).arrAt 1 cfg0.N = rowSums (V c main_arg1) :=
  (dat0 V c).arrAt_eq_of_cover 1 (rowSums (V c main_arg1)) (fun t _ => flushed_eq V c t) cover

end Cert.KernelIdeal.DegreeValue

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.SupportValue.lean ====
/-
  What the support region leaves in its output array, at the exact instance: entry (r, f) of the [8192,256] result is
  (Σ_k X(r,k)·W(k,f)) · s(r,0), the feature-by-weight product scaled by the row's node scaling.  Point t of the 8
  writes back rows 1024·t … 1024·t + 1023; the blocks tile the array.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import proofs.«109137_j20117626815086_2_alg».proof.Proof.SupportRegion
import proofs.«109137_j20117626815086_2_alg».proof.Proof.LibColumns
import proofs.«109137_j20117626815086_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SupportValue

open Cert.KernelIdeal Cert.KernelIdeal.Gen Cert.KernelIdeal.SupportRegion
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product of features by weight with each row scaled by its node's scaling. -/
def scaledSupport (x : S8192x512.Idx → EReal) (w : S512x256.Idx → EReal) (s : S8192x1.Idx → EReal) : S8192x256.Idx → EReal :=
  fun i => (∑ k : Fin 512, x (ix2 (i 0) k) * w (ix2 k (i 1))) * s (ix2 (i 0) (0 : Fin 1))

/-- The body's arithmetic at entry (p, f) of the block: the product's entry times the row's scaling. -/
theorem pay_apply (x0 : Vec Ideal S1024x512 .f32) (x1 : Vec Ideal S512x256 .f32) (x2 : Vec Ideal S1024x1 .f32) (p : Fin 1024) (f : Fin 256) :
    k1_pay1 x0 x1 x2 (ix2 p f) = (∑ k : Fin 512, x0 (ix2 p k) * x1 (ix2 k f)) * x2 (ix2 p (0 : Fin 1)) := by
  unfold k1_pay1
  refine congrArg₂ (fun a b : EReal => a * b) ?_ ?_
  · exact Cert.LibMatmul.plain_matmul_zero_apply none x0 x1 p f
  · refine (Cert.LibColumns.broadcastTo_a1_ab_apply _ _ p f).trans ?_
    exact congrFun (shapeCast_self x2 _) _

/-- The printed index maps over the grid: features, scalings and output move together along the rows, point t at
    block t; the weight stays whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The body's value at entry (p, f) of point t's blocks is the scaled support at the output block's entry (p, f). -/
theorem block_eq (X : S8192x512.Idx → EReal) (Wt : S512x256.Idx → EReal) (S : S8192x1.Idx → EReal) (t : Fin cfg1.N) (p : Fin 1024) (f : Fin 256) :
    (∑ k : Fin 512, X (((cfg1.win 0).blk t).view.emb (ix2 p k)) * Wt (((cfg1.win 1).blk t).view.emb (ix2 k f)))
        * S (((cfg1.win 2).blk t).view.emb (ix2 p (0 : Fin 1)))
      = scaledSupport X Wt S (((cfg1.win 3).blk t).view.emb (ix2 p f)) := by
  obtain ⟨e0, e1, e2, e3, e4, e5, e6, e7⟩ := idx_facts t
  show _ = (∑ k : Fin 512, X (ix2 ((((cfg1.win 3).blk t).view.emb (ix2 p f)) 0) k) * Wt (ix2 k ((((cfg1.win 3).blk t).view.emb (ix2 p f)) 1)))
      * S (ix2 ((((cfg1.win 3).blk t).view.emb (ix2 p f)) 0) (0 : Fin 1))
  have h2 : ((cfg1.win 2).blk t).view.emb (ix2 p (0 : Fin 1)) = ix2 ((((cfg1.win 3).blk t).view.emb (ix2 p f)) 0) (0 : Fin 1) := by
    funext a; apply Fin.ext
    match a with
    | ⟨0, _⟩ => show win1_2.index t (0 : Fin 2) * 1024 + 1 * p.val = win1_3.index t (0 : Fin 2) * 1024 + 1 * p.val; omega
    | ⟨1, _⟩ => show win1_2.index t (1 : Fin 2) * 1 + 1 * 0 = 0; omega
  rw [h2]
  refine congrArg (fun a : EReal => a * _) (Finset.sum_congr rfl fun k _ => ?_)
  have h0 : ((cfg1.win 0).blk t).view.emb (ix2 p k) = ix2 ((((cfg1.win 3).blk t).view.emb (ix2 p f)) 0) k := by
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 512 + 1 * k.val = k.val; omega
  have h1 : ((cfg1.win 1).blk t).view.emb (ix2 k f) = ix2 k ((((cfg1.win 3).blk t).view.emb (ix2 p f)) 1) := by
    funext a; apply Fin.ext
    match a with
    | ⟨0, _⟩ => show win1_1.index t (0 : Fin 2) * 512 + 1 * k.val = k.val; omega
    | ⟨1, _⟩ => show win1_1.index t (1 : Fin 2) * 256 + 1 * f.val = win1_3.index t (1 : Fin 2) * 256 + 1 * f.val; omega
  rw [h0, h1]
  exact rfl

/-- What point t writes back is block t of the scaled support of the arrays as the region finds them. -/
theorem flushed_eq (c : Dev nD) (t : Fin cfg1.N) :
    (dat1 V c).flushed 3 t = ((cfg1.win 3).blk t).view.read (Elt Ideal) (scaledSupport (V c main_arg0) (V c main_arg2) (V c main_v5)) := by
  show (cfg1.win 3).cut (grid1.coords t) ((dat1 V c).after 3 t) = _
  rw [after1_3]
  unfold out1_3
  rw [View.canon_unit_zero hz]
  simp only [View.ld_unit_zero (S := S1024x512) hz, View.ld_unit_zero (S := S512x256) hz, View.ld_unit_zero (S := S1024x1) hz]
  funext j
  obtain ⟨p, f, rfl⟩ : ∃ (p : Fin 1024) (f : Fin 256), j = ix2 p f := ⟨j 0, j 1, eq_ix2 j⟩
  refine (pay_apply _ _ _ p f).trans ?_
  exact block_eq (V c main_arg0) (V c main_arg2) (V c main_v5) t p f

/-- An index of the array is in point t's block iff each coordinate is in the block's range on its axis. -/
theorem mem_blk (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v6).slice (win1_3.rect t)).set ↔ _
  rw [View.set_slice_whole, Rect.mem_set_unit]
  exact Iff.rfl

/-- Every row of the array is in some point's block: row r in block r / 1024. -/
theorem cover (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  refine ⟨⟨(i 0).val / 1024, by rw [show cfg1.N = 8 from N_1]; omega⟩, flush1_3 _, ?_⟩
  rw [mem_blk]
  obtain ⟨e0, e1, e2, e3, e4, e5, e6, e7⟩ := idx_facts ⟨(i 0).val / 1024, by rw [show cfg1.N = 8 from N_1]; omega⟩
  intro a
  match a with
  | ⟨0, _⟩ => show win1_3.index _ (0 : Fin 2) * 1024 ≤ (i 0).val ∧ (i 0).val < win1_3.index _ (0 : Fin 2) * 1024 + 1024; rw [e6]; show (i 0).val / 1024 * 1024 ≤ _ ∧ _ < (i 0).val / 1024 * 1024 + 1024; omega
  | ⟨1, _⟩ => show win1_3.index _ (1 : Fin 2) * 256 ≤ (i 1).val ∧ (i 1).val < win1_3.index _ (1 : Fin 2) * 256 + 256; rw [e7]; omega

/-- The output array after the region: the scaled support of the arrays as the region finds them. -/
theorem final (c : Dev nD) : (dat1 V c).arrAt 3 cfg1.N = scaledSupport (V c main_arg0) (V c main_arg2) (V c main_v5) :=
  (dat1 V c).arrAt_eq_of_cover 3 (scaledSupport (V c main_arg0) (V c main_arg2) (V c main_v5)) (fun t _ => flushed_eq V c t) cover

end Cert.KernelIdeal.SupportValue

end
-- ==== Proof.Spec.lean ====
/-
  The two arrangements of the normalised sharpening layer, as functions of the four argument arrays over the
  extended reals, index by index.

  With deg r = Σ_c A(r,c), the node scaling s(r) = 1 / √(2 + deg r) and the support P(c,f) = Σ_k X(c,k)·W(k,f):
  * the scaled-support arrangement: relu( s(r) · (2·(P(r,f)·s(r)) − Σ_c A(r,c)·(P(c,f)·s(c))) + b(f) );
  * the dense-operator arrangement: relu( Σ_c ((s(r)·(2·δ(r,c) − A(r,c)))·s(c))·P(c,f) + b(f) ).
  The constants 1 and 2 are kept as the f32 words that denote them.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 512]⟩
abbrev SA : Shape := ⟨2, ![8192, 8192]⟩
abbrev SW : Shape := ⟨2, ![512, 256]⟩
abbrev SB : Shape := ⟨1, ![256]⟩
abbrev SO : Shape := ⟨2, ![8192, 256]⟩

/-- The word of the f32 constant 2. -/
abbrev two : EReal := Ideal.ofBits .f32 0x40000000#32
/-- The word of the f32 constant 1. -/
abbrev one : EReal := Ideal.ofBits .f32 0x3F800000#32

variable (X : SX.Idx → EReal) (A : SA.Idx → EReal) (W : SW.Idx → EReal) (b : SB.Idx → EReal)

/-- The degree of node `r`: its row of `A` summed. -/
def deg (r : Fin 8192) : EReal := ∑ c : Fin 8192, A (ix2 r c)

/-- The node scaling `1 / √(2 + deg r)`. -/
def scale (r : Fin 8192) : EReal := Ideal.div one (Ideal.sqrt (two + deg A r))

/-- The support `X · W` at node `c`, feature `f`. -/
def support (c : Fin 8192) (f : Fin 256) : EReal := ∑ k : Fin 512, X (ix2 c k) * W (ix2 k f)

/-- The support scaled by its node's scaling. -/
def scaled (c : Fin 8192) (f : Fin 256) : EReal := support X W c f * scale A c

/-- The scaled-support arrangement. -/
def scaledForm : SO.Idx → EReal := fun i =>
  max (scale A (i 0) * (two * scaled X A W (i 0) (i 1) - ∑ c : Fin 8192, A (ix2 (i 0) c) * scaled X A W c (i 1)) + b (ix1 (i 1))) 0

/-- The dense-operator arrangement; `δ` is 1 on the diagonal and 0 off it. -/
def denseForm : SO.Idx → EReal := fun i =>
  max ((∑ c : Fin 8192, ((scale A (i 0) * (two * (if (i 0).val = c.val then (1 : EReal) else 0) - A (ix2 (i 0) c))) * scale A c) * support X W c (i 1))
    + b (ix1 (i 1))) 0

end Cert.Spec

end
-- ==== Proof.Boundaries.lean ====
/-
  What the buffers hold at the boundaries of @main before the main region, at the exact instance, as functions of the
  four argument arrays X, A, W, b: the degrees after region 0, the node scalings after the first host stretch, the
  scaled support after region 1, the bias as a one-row matrix after the reshape; the arguments reach the main region
  as launched.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import proofs.«109137_j20117626815086_2_alg».proof.Proof.RunEarly
import proofs.«109137_j20117626815086_2_alg».proof.Proof.DegreeValue
import proofs.«109137_j20117626815086_2_alg».proof.Proof.SupportValue
import proofs.«109137_j20117626815086_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Boundaries

open Cert.KernelIdeal Cert.KernelIdeal.Gen Cert.KernelIdeal.Run Cert.KernelIdeal.DegreeRegion Cert.KernelIdeal.SupportRegion
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The four argument arrays on core `c`, as launched. -/
abbrev argX (c : Dev nD) : S8192x512.Idx → EReal := m ((c : Thread nD τ).loc main_arg0)
abbrev argA (c : Dev nD) : S8192x8192.Idx → EReal := m ((c : Thread nD τ).loc main_arg1)
abbrev argW (c : Dev nD) : S512x256.Idx → EReal := m ((c : Thread nD τ).loc main_arg2)
abbrev argB (c : Dev nD) : S256.Idx → EReal := m ((c : Thread nD τ).loc main_arg3)

/-- After region 0 the degree column holds the adjacency's row sums. -/
theorem degree_col (c : Dev nD) :
    (W1 m c (Proc.devRef .tc main_v0) : S8192x1.Idx → EReal) = Cert.KernelIdeal.DegreeValue.rowSums (argA m c) :=
  (W1_arr m c 1).trans (Cert.KernelIdeal.DegreeValue.final (V0 m) c)

/-- After the first host stretch the scaling column holds 1/√(2 + degree), row by row. -/
theorem scale_col (c : Dev nD) :
    (W2 m c (Proc.devRef .tc main_v5) : S8192x1.Idx → EReal) = fun i => Cert.Spec.scale (argA m c) (i 0) := by
  have e : (W2 m c (Proc.devRef .tc main_v5) : S8192x1.Idx → EReal)
      = Host.divf (broadcastInDim S8192x1 ![] bcast_S_S8192x1 (constant (F := Ideal) S_ .f32 0x3F800000#32))
          (Host.sqrt (addf (broadcastInDim S8192x1 ![] bcast_S_S8192x1 (constant (F := Ideal) S_ .f32 0x40000000#32))
            (W1 m c (Proc.devRef .tc main_v0)))) := by
    show StableHlo.after hostOps1 (W1 m c) (Proc.devRef .tc main_v5) = _
    after_results
  rw [e, degree_col]
  funext i
  rfl

/-- An argument no earlier item writes reaches the support region, and the main region, as launched. -/
theorem W2_arg0 (c : Dev nD) : W2 m c (Proc.devRef .tc main_arg0) = m ((c : Thread nD τ).loc main_arg0) :=
  (W2_of m c main_arg0 (by decide)).trans (W1_of_ne m c main_arg0 (by decide))
theorem W2_arg2 (c : Dev nD) : W2 m c (Proc.devRef .tc main_arg2) = m ((c : Thread nD τ).loc main_arg2) :=
  (W2_of m c main_arg2 (by decide)).trans (W1_of_ne m c main_arg2 (by decide))
theorem W3_arg3 (c : Dev nD) : W3 m c (Proc.devRef .tc main_arg3) = m ((c : Thread nD τ).loc main_arg3) :=
  (W3_of_ne m c main_arg3 (by decide)).trans ((W2_of m c main_arg3 (by decide)).trans (W1_of_ne m c main_arg3 (by decide)))
theorem W4_arg1 (c : Dev nD) : W4 m c (Proc.devRef .tc main_arg1) = m ((c : Thread nD τ).loc main_arg1) :=
  (W4_of m c main_arg1 (by decide)).trans ((W3_of_ne m c main_arg1 (by decide)).trans ((W2_of m c main_arg1 (by decide)).trans
    ((W1_arr m c 0).trans (((dat0 (V0 m) c).arrAt_in 0 rfl _).trans (A_eq0 (V0 m) c 0)))))

/-- After region 1 the support array holds the scaled support of the arguments. -/
theorem support_arr (c : Dev nD) :
    (W3 m c (Proc.devRef .tc main_v6) : S8192x256.Idx → EReal)
      = fun i => Cert.Spec.scaled (argX m c) (argA m c) (argW m c) (i 0) (i 1) := by
  refine (W3_arr m c 3).trans ((Cert.KernelIdeal.SupportValue.final (V2 m) c).trans ?_)
  show Cert.KernelIdeal.SupportValue.scaledSupport (W2 m c (Proc.devRef .tc main_arg0)) (W2 m c (Proc.devRef .tc main_arg2))
    (W2 m c (Proc.devRef .tc main_v5)) = _
  rw [W2_arg0, W2_arg2, scale_col]
  rfl

/-- The scaling column and the support array reach the main region unchanged. -/
theorem W4_scale (c : Dev nD) : W4 m c (Proc.devRef .tc main_v5) = W2 m c (Proc.devRef .tc main_v5) :=
  (W4_of m c main_v5 (by decide)).trans ((W3_arr m c 2).trans (((dat1 (V2 m) c).arrAt_in 2 rfl _).trans (A_eq1 (V2 m) c 2)))
theorem W4_support (c : Dev nD) : W4 m c (Proc.devRef .tc main_v6) = W3 m c (Proc.devRef .tc main_v6) :=
  W4_of m c main_v6 (by decide)

/-- A length-256 vector reshaped to one row reads, at (u, f), the vector at f. -/
theorem reshape_row (x : S256.Idx → EReal) (h : S256.ShapeCasts S1x256) (i : S1x256.Idx) :
    shapeCast S1x256 x h i = x (ix1 (i 1)) := by
  refine shapeCast_apply x h i (ix1 (i 1)) ?_
  rw [Shape.rowMajor_val_two, Shape.rowMajor_val_one]
  have h0 : (i 0).val < 1 := (i 0).isLt
  show (i 1).val = (i 0).val * 256 + (i 1).val
  omega

/-- After the reshape the bias is a one-row matrix: entry (0, f) is b f. -/
theorem bias_row (c : Dev nD) :
    (W4 m c (Proc.devRef .tc main_v7) : S1x256.Idx → EReal) = fun i => argB m c (ix1 (i 1)) := by
  show StableHlo.after hostOps2 (W3 m c) (Proc.devRef .tc main_v7) = _
  after_results
  funext i
  show shapeCast S1x256 (W3 m c (Proc.devRef .tc main_arg3)) shapeCasts_S256_S1x256 i = _
  rw [W3_arg3]
  exact reshape_row _ _ i

end Cert.KernelIdeal.Boundaries

end
-- ==== Proof.MainPieces.lean ====
/-
  Region 2, the propagation kernel: what the three runs leave in the accumulator and in the output's buffer at a grid
  point, as the kernel's payloads of the point's blocks.  With S the scaled support (one whole [8192,256] block), A the
  adjacency tile of the point, d the column of node scalings and b the bias row:
    k = 0:      accumulator := payload₂ (rows 1024·k … of S) A zeros
    0 < k < 7:  accumulator := payload₂ (rows 1024·k … of S) A (accumulator before)
    k = 7:      accumulator := the same, and output := payload₃ (rows 1024·i … of S) d (that accumulator) b.
-/
import proofs.«109137_j20117626815086_2_alg».proof.Proof.MainRegion
import Idealize.ShloMosaic.Lib.Pipeline.Value

set_option maxRecDepth 16384

noncomputable section

namespace Cert.KernelIdeal.MainRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole-buffer accesses all start at the zero offsets. -/
theorem zeroOffsets : (![0, 0] : Fin 2 → Nat) = fun _ => 0 := by
  funext a; fin_cases a <;> rfl

/-- The accumulator held whole at contents `xs` reads `xs`. -/
theorem acc_read_unread (xs : Vec F S1024x256 .f32) :
    (View.whole cc2_scratch0).read (Elt F) ((Memref.isWhole_whole cc2_scratch0).unread xs) = xs :=
  (Memref.isWhole_whole cc2_scratch0).read_unread xs

/-- Where k = 0: the product of the adjacency tile with its rows of the support, added to zeros. -/
theorem accFirst_eq (c : Dev nD) (t : Fin cfg2.N) (hz : zeroes (grid2.coords t)) (he : ¬emits (grid2.coords t)) :
    accFirst V c t hz he = k2_pay2 (View.ld (S := S8192x256) (iblk2 V c 1 t) (Rect.unit (s := S8192x256) (k2_off1 (grid2.coords t)) S1024x256.size (k2_off1_inb (grid2.coords t)))) (iblk2 V c 0 t) (k2_pay1 (F := F)) := by
  rw [accFirst_eq_canon]
  unfold firstAt runFirst; dsimp only; sl_unfold_run_names
  rw [View.canon_cons_unit_zero zeroOffsets, View.readCov_unit_zero _ zeroOffsets]
  simp only [View.readAt_eq_ld, Memref.IsWhole.read_unread, View.ld_unit_zero (S := S1024x1024) zeroOffsets]

/-- Where 0 < k < 7: the product added to what the accumulator held. -/
theorem accMiddle_eq (c : Dev nD) (t : Fin cfg2.N) (hz : ¬zeroes (grid2.coords t)) (he : ¬emits (grid2.coords t)) (xs : Vec F S1024x256 .f32) :
    accMiddle V c t hz he xs = k2_pay2 (View.ld (S := S8192x256) (iblk2 V c 1 t) (Rect.unit (s := S8192x256) (k2_off1 (grid2.coords t)) S1024x256.size (k2_off1_inb (grid2.coords t)))) (iblk2 V c 0 t) xs := by
  rw [accMiddle_eq_canon]
  unfold middleAt runMiddle; dsimp only; sl_unfold_run_names
  rw [View.canon_cons_unit_zero zeroOffsets]
  simp only [View.readAt_eq_ld, Memref.IsWhole.read_unread, acc_read_unread, View.ld_unit_zero (S := S1024x1024) zeroOffsets, View.ld_unit_zero (S := S1024x256) zeroOffsets]

/-- Where k = 7 the accumulator gets the last product the same way, -/
theorem accLast_eq (c : Dev nD) (t : Fin cfg2.N) (hz : ¬zeroes (grid2.coords t)) (he : emits (grid2.coords t)) (xs : Vec F S1024x256 .f32) :
    accLast V c t hz he xs = k2_pay2 (View.ld (S := S8192x256) (iblk2 V c 1 t) (Rect.unit (s := S8192x256) (k2_off1 (grid2.coords t)) S1024x256.size (k2_off1_inb (grid2.coords t)))) (iblk2 V c 0 t) xs := by
  rw [accLast_eq_canon]
  unfold lastAt runLast; dsimp only; sl_unfold_run_names
  rw [View.canon_cons_unit_zero zeroOffsets]
  simp only [View.readAt_eq_ld, Memref.IsWhole.read_unread, acc_read_unread, View.ld_unit_zero (S := S1024x1024) zeroOffsets, View.ld_unit_zero (S := S1024x256) zeroOffsets]

/-- and the output block is computed from the finished accumulator, rows 1024·i … of the support, the node scalings
    and the bias. -/
theorem outLast_eq (c : Dev nD) (t : Fin cfg2.N) (hz : ¬zeroes (grid2.coords t)) (he : emits (grid2.coords t)) (xs : Vec F S1024x256 .f32) :
    outLast V c t hz he xs = k2_pay3 (View.ld (S := S8192x256) (iblk2 V c 1 t) (Rect.unit (s := S8192x256) (k2_off2 (grid2.coords t)) S1024x256.size (k2_off2_inb (grid2.coords t) he))) (iblk2 V c 2 t)
      (k2_pay2 (View.ld (S := S8192x256) (iblk2 V c 1 t) (Rect.unit (s := S8192x256) (k2_off1 (grid2.coords t)) S1024x256.size (k2_off1_inb (grid2.coords t)))) (iblk2 V c 0 t) xs) (iblk2 V c 3 t) := by
  rw [outLast_eq_canon]
  unfold lastAt runLast; dsimp only; sl_unfold_run_names
  rw [View.canon_cons_unit_zero zeroOffsets, View.readCov_unit_zero _ zeroOffsets]
  simp only [View.readAt_eq_ld, Memref.IsWhole.read_unread, acc_read_unread, View.ld_unit_zero (S := S1024x1024) zeroOffsets, View.ld_unit_zero (S := S1024x256) zeroOffsets,
    View.ld_unit_zero (S := S1024x1) zeroOffsets, View.ld_unit_zero (S := S1x256) zeroOffsets]

end Cert.KernelIdeal.MainRegion

end
-- ==== Proof.MainPayloads.lean ====
/-
  The main kernel's three stored values read at an entry, at the exact instance: the zero fill; the accumulator plus
  one tile's product; and the finished block relu( s·(2·y − acc) + b ).
-/
import proofs.«109137_j20117626815086_2_alg».proof.Proof.Gen.KernelIdeal.Skeleton
import proofs.«109137_j20117626815086_2_alg».proof.Proof.LibColumns
import proofs.«109137_j20117626815086_2_alg».proof.Proof.LibMatmul
import proofs.«109137_j20117626815086_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MainPayloads

open Cert.KernelIdeal Cert.KernelIdeal.Gen
open Idealize.ShloMosaic Idealize.ShloMosaic.ValueIdx

/-- A [1,b] row broadcast down a columns reads, at (p, f), the row's entry f. -/
theorem broadcastTo_1b_ab_apply {α : Type} {a b : ℕ} (v : (⟨2, ![1, b]⟩ : Shape).Idx → α)
    (h : (⟨2, ![1, b]⟩ : Shape).Broadcasts ⟨2, ![a, b]⟩) (p : Fin a) (f : Fin b) :
    broadcastTo ⟨2, ![a, b]⟩ v h (ix2 p f) = v (ix2 (0 : Fin 1) f) := by
  refine broadcastTo_apply v h (ix2 p f) (ix2 (0 : Fin 1) f) fun ax => ?_
  match ax with
  | ⟨0, _⟩ => rfl
  | ⟨1, _⟩ =>
    show f.val = if b = 1 then 0 else f.val
    split
    · have := f.isLt; omega
    · rfl

/-- The zero fill is zero everywhere. -/
theorem pay1_apply (i : S1024x256.Idx) : k2_pay1 (F := Ideal) i = 0 := by
  unfold k2_pay1
  refine (congrFun (shapeCast_self _ _) i).trans ?_
  exact Ideal.ofBits_zero_f32

/-- The accumulation step at entry (p, f): what the accumulator held plus row p of the tile against column f of the
    scaled-support rows. -/
theorem pay2_apply (v6 : Vec Ideal S1024x256 .bf16) (v8 : Vec Ideal S1024x1024 .f32) (v10 : Vec Ideal S1024x256 .f32) (p : Fin 1024) (f : Fin 256) :
    k2_pay2 v6 v8 v10 (ix2 p f) = v10 (ix2 p f) + ∑ c' : Fin 1024, v8 (ix2 p c') * v6 (ix2 c' f) := by
  unfold k2_pay2
  refine (congrFun (shapeCast_self _ _) _).trans ?_
  refine congrArg (fun a : EReal => v10 (ix2 p f) + a) ?_
  refine (Cert.LibMatmul.plain_matmul_zero_apply none v8 _ p f).trans ?_
  exact Finset.sum_congr rfl fun c' _ => congrArg (fun a : EReal => v8 (ix2 p c') * a) (congrFun (shapeCast_self v6 _) _)

/-- The finished block at entry (p, f). -/
theorem pay3_apply (v22 : Vec Ideal S1024x256 .bf16) (v25 : Vec Ideal S1024x1 .f32) (v29 : Vec Ideal S1024x256 .f32) (v33 : Vec Ideal S1x256 .f32) (p : Fin 1024) (f : Fin 256) :
    k2_pay3 v22 v25 v29 v33 (ix2 p f)
      = max (v25 (ix2 p (0 : Fin 1)) * (Cert.Spec.two * v22 (ix2 p f) - v29 (ix2 p f)) + v33 (ix2 (0 : Fin 1) f)) 0 := by
  unfold k2_pay3
  have hA : broadcastTo S1024x256 (shapeCast S1024x1 v25 shapeCasts_S1024x1_S1024x1) broadcasts_S1024x1_S1024x256 (ix2 p f) = v25 (ix2 p (0 : Fin 1)) :=
    (Cert.LibColumns.broadcastTo_a1_ab_apply _ _ p f).trans (congrFun (shapeCast_self v25 _) _)
  have hB : shapeCast S1024x256 v22 shapeCasts_S1024x256_S1024x256 (ix2 p f) = v22 (ix2 p f) := congrFun (shapeCast_self v22 _) _
  have hC : broadcastTo S1024x256 (shapeCast S1x256 v33 shapeCasts_S1x256_S1x256) broadcasts_S1x256_S1024x256 (ix2 p f) = v33 (ix2 (0 : Fin 1) f) :=
    (broadcastTo_1b_ab_apply _ _ p f).trans (congrFun (shapeCast_self v33 _) _)
  show max (broadcastTo S1024x256 (shapeCast S1024x1 v25 shapeCasts_S1024x1_S1024x1) broadcasts_S1024x1_S1024x256 (ix2 p f)
        * (Ideal.ofBits .f32 0x40000000#32 * shapeCast S1024x256 v22 shapeCasts_S1024x256_S1024x256 (ix2 p f) - v29 (ix2 p f))
      + broadcastTo S1024x256 (shapeCast S1x256 v33 shapeCasts_S1x256_S1x256) broadcasts_S1x256_S1024x256 (ix2 p f))
      (Ideal.ofBits .f32 0x00000000#32) = _
  rw [hA, hB, hC, Ideal.ofBits_zero_f32]

end Cert.KernelIdeal.MainPayloads

end
-- ==== Proof.LibCube.lean ====
/-
  Rank-three blocks built from a matrix and reduced back, read at an index — general in the extents.

  A matrix `[a, b]` viewed with a unit axis in the middle, `[a, 1, b]`; such a block broadcast along the middle axis to
  `[a, c, b]`; the source index a sum along the middle axis of an `[a, b, c]` block inserts, and the one a sum along the
  first axis of a matrix inserts; sums over the index sets of `[1, b]` and `[1, b, c]` blocks as sums over coordinates;
  a sum over `m · n` consecutive positions grouped as `m` runs of `n`; and, at the exact instance, a lane sum of a matrix
  and a sum along the middle axis of a rank-three block as sums over the summed coordinate.
-/
import Idealize.ShloMosaic.Lib.ValueLayout
import Idealize.ShloMosaic.PureOps.Reduce
import Idealize.ShloMosaic.PureOps.Ideal.Laws

open scoped BigOperators

namespace Cert.LibCube

open Idealize.ShloMosaic Idealize.ShloMosaic.ValueIdx

variable {α : Type}

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- The source index a sum along the middle axis of an `[a, b, c]` block inserts over `(r, n)` at coordinate `p`
    is `(r, p, n)`. -/
theorem lift_mid {a b c : ℕ} (h : (⟨3, ![a, b, c]⟩ : Shape).Reduces [1] ⟨2, ![a, c]⟩) (r : Fin a) (n : Fin c) (p : Fin b) :
    h.lift (ix2 r n) p = ix3 r p n := by
  funext ax
  apply Fin.ext
  match ax with
  | ⟨0, _⟩ => rfl
  | ⟨1, _⟩ => rfl
  | ⟨2, _⟩ => rfl

/-- The source index a sum along the first axis of an `[a, b]` matrix inserts over `l` at coordinate `g` is `(g, l)`. -/
theorem lift_first {a b : ℕ} (h : (⟨2, ![a, b]⟩ : Shape).Reduces [0] ⟨1, ![b]⟩) (l : Fin b) (g : Fin a) :
    h.lift (ix1 l) g = ix2 g l := by
  funext ax
  apply Fin.ext
  match ax with
  | ⟨0, _⟩ => rfl
  | ⟨1, _⟩ => rfl

/-- A sum over the index set of a `[1, b]` block is the sum over its second coordinate. -/
theorem sum_idx_1b {M : Type*} [AddCommMonoid M] {b : ℕ} (f : (⟨2, ![1, b]⟩ : Shape).Idx → M) :
    ∑ i, f i = ∑ r : Fin b, f (ix2 (0 : Fin 1) r) := by
  rw [sum_idx2, Fin.sum_univ_one]

/-- Every index of a `[1, b, c]` block is `(0, r, k)`; its index set is the product of the two long ranges. -/
def idxEquiv_1bc {b c : ℕ} : (⟨3, ![1, b, c]⟩ : Shape).Idx ≃ Fin b × Fin c where
  toFun i := (i 1, i 2)
  invFun p := ix3 (0 : Fin 1) p.1 p.2
  left_inv i := by
    funext ax
    match ax with
    | ⟨0, _⟩ => exact Fin.ext (by have h0 : (i 0).val < 1 := (i 0).isLt; show 0 = (i 0).val; omega)
    | ⟨1, _⟩ => rfl
    | ⟨2, _⟩ => rfl
  right_inv _ := rfl

/-- So a sum over it is the double sum over the two long coordinates. -/
theorem sum_idx_1bc {M : Type*} [AddCommMonoid M] {b c : ℕ} (f : (⟨3, ![1, b, c]⟩ : Shape).Idx → M) :
    ∑ i, f i = ∑ r : Fin b, ∑ k : Fin c, f (ix3 (0 : Fin 1) r k) := by
  rw [← Equiv.sum_comp (idxEquiv_1bc (b := b) (c := c)).symm f, Fintype.sum_prod_type]
  rfl

/-- A sum over `m · n` positions is the sum over `m` runs of the sums over each run's `n` positions. -/
theorem sum_runs {M : Type*} [AddCommMonoid M] {m n : ℕ} (f : Fin (m * n) → M) :
    ∑ g : Fin m, ∑ r : Fin n, f (finProdFinEquiv (g, r)) = ∑ R, f R := by
  rw [← Fintype.sum_prod_type (f := fun p : Fin m × Fin n => f (finProdFinEquiv p))]
  exact Equiv.sum_comp finProdFinEquiv f

/-- A lane sum of an `[a, b]` matrix (its accumulator the neutral zero) reads, at row `r`, the sum over `k < b` of the
    entries `(r, k)`. -/
theorem laneSum_ix1 {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show (∑ k : Fin b, src (h.lift (ix1 r) k)) = _
  refine Finset.sum_congr rfl fun k _ => congrArg src ?_
  funext ax
  apply Fin.ext
  match ax with
  | ⟨0, _⟩ => rfl
  | ⟨1, _⟩ => rfl

/-- A sum along the middle axis of an `[a, b, c]` block reads, at `(r, n)`, the sum over `p < b` of the entries
    `(r, p, n)`. -/
theorem midSum_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (r : Fin a) (n : Fin c) :
    multiReduction .add [1] ⟨2, ![a, c]⟩ src acc h hφ hacc (ix2 r n) = ∑ p : Fin b, src (ix3 r p n) := by
  refine (Ideal.multiReduction_add_single src acc h hφ hacc (ix2 r n)).trans ?_
  show (∑ p : Fin b, src (h.lift (ix2 r n) p)) = _
  exact Finset.sum_congr rfl fun p _ => congrArg src (lift_mid h r n p)

end Cert.LibCube
-- ==== Proof.MainValue.lean ====
/-
  What the propagation region leaves in its output array, at the exact instance: entry (r, f) of the [8192,256] result is
  relu( s(r)·(2·Y(r,f) − Σ_c A(r,c)·Y(c,f)) + b(f) ), with A the adjacency, Y the scaled support, s the node scalings
  and b the bias, as the region finds them.

  The grid has 64 points t = 8·i + k.  For row block i the accumulator gathers, one tile a point, the products of
  adjacency tile (i, k) with rows 1024·k … 1024·k + 1023 of Y: after point t it holds at (p, f) the sum of the first
  k + 1 tile products of node 1024·i + p.  The eight tile products are the whole row sum over the 8192 nodes.  At
  k = 7 the output block i is computed from the finished accumulator and written back; the eight written blocks tile
  the array.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import proofs.«109137_j20117626815086_2_alg».proof.Proof.MainRegion
import proofs.«109137_j20117626815086_2_alg».proof.Proof.MainPieces
import proofs.«109137_j20117626815086_2_alg».proof.Proof.MainPayloads
import proofs.«109137_j20117626815086_2_alg».proof.Proof.LibCube
import proofs.«109137_j20117626815086_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MainValue

open Cert.KernelIdeal Cert.KernelIdeal.Gen Cert.KernelIdeal.MainRegion
open Idealize.ShloMosaic Idealize.ShloMosaic.TcCoe Idealize.ShloMosaic.ValueIdx
open Idealize.ShloMosaic.Pipeline (Dat Cfg Window)
open scoped BigOperators

/-! ## The accumulated sums, over any arrays -/

/-- Node `r + 1024·g`: position `r` of the `g`-th run of 1024 nodes. -/
abbrev node (g : Fin 8) (r : Fin 1024) : Fin 8192 := finProdFinEquiv (g, r)

theorem node_val (g : Fin 8) (r : Fin 1024) : (node g r).val = r.val + 1024 * g.val := rfl

/-- Row `R` of the `g`-th adjacency tile of its row block against column `f` of the `g`-th run of rows of `Y`. -/
def tileSum (A : S8192x8192.Idx → EReal) (Y : S8192x256.Idx → EReal) (R : Fin 8192) (f : Fin 256) (g : Fin 8) : EReal :=
  ∑ c' : Fin 1024, A (ix2 R (node g c')) * Y (ix2 (node g c') f)

/-- The sum of the first `n` tile products. -/
def accSum (A : S8192x8192.Idx → EReal) (Y : S8192x256.Idx → EReal) (R : Fin 8192) (f : Fin 256) (n : ℕ) : EReal :=
  ∑ g : Fin 8, if g.val < n then tileSum A Y R f g else 0

theorem accSum_zero (A : S8192x8192.Idx → EReal) (Y : S8192x256.Idx → EReal) (R : Fin 8192) (f : Fin 256) :
    accSum A Y R f 0 = 0 := by
  unfold accSum
  exact Finset.sum_eq_zero fun g _ => if_neg (Nat.not_lt_zero _)

theorem accSum_succ (A : S8192x8192.Idx → EReal) (Y : S8192x256.Idx → EReal) (R : Fin 8192) (f : Fin 256) (n : ℕ) (hn : n < 8) :
    accSum A Y R f (n + 1) = accSum A Y R f n + tileSum A Y R f ⟨n, hn⟩ := by
  unfold accSum
  have hpt : ∀ g : Fin 8, (if g.val < n + 1 then tileSum A Y R f g else 0)
      = (if g.val < n then tileSum A Y R f g else 0) + (if g = ⟨n, hn⟩ then tileSum A Y R f g else 0) := by
    intro g
    by_cases h1 : g.val < n
    · have h2 : g.val < n + 1 := by omega
      have h3 : g ≠ ⟨n, hn⟩ := fun e => by rw [e] at h1; exact lt_irrefl _ h1
      rw [if_pos h1, if_pos h2, if_neg h3, add_zero]
    · by_cases h3 : g = ⟨n, hn⟩
      · subst h3
        rw [if_pos (Nat.lt_succ_self n), if_neg (lt_irrefl n), if_pos rfl, zero_add]
      · have h2 : ¬ g.val < n + 1 := fun h => h3 (Fin.ext (by show g.val = n; omega))
        rw [if_neg h1, if_neg h2, if_neg h3, add_zero]
  rw [Finset.sum_congr rfl (fun g _ => hpt g), Finset.sum_add_distrib, Finset.sum_ite_eq', if_pos (Finset.mem_univ _)]

/-- All eight tile products together are the whole row against the whole column. -/
theorem accSum_eight (A : S8192x8192.Idx → EReal) (Y : S8192x256.Idx → EReal) (R : Fin 8192) (f : Fin 256) :
    accSum A Y R f 8 = ∑ c : Fin 8192, A (ix2 R c) * Y (ix2 c f) := by
  unfold accSum tileSum
  rw [Finset.sum_congr rfl (fun g _ => if_pos g.isLt)]
  exact Cert.LibCube.sum_runs (m := 8) (n := 1024) (fun c : Fin (8 * 1024) => A (ix2 R c) * Y (ix2 c f))

/-! ## The grid's index maps -/

/-- Over the 64 points, t = 8·i + k: the adjacency tile is block (i, k); the scaled support and the bias stay whole;
    the node scalings and the output are at row block i; the tile's rows of the support start at 1024·k and the
    output's at 1024·i. -/
theorem idx_facts : ∀ t : Fin cfg2.N,
    win2_0.index t (0 : Fin 2) = t.val / 8 ∧ win2_0.index t (1 : Fin 2) = t.val % 8
    ∧ win2_1.index t (0 : Fin 2) = 0 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = 0
    ∧ win2_4.index t (0 : Fin 2) = t.val / 8 ∧ win2_4.index t (1 : Fin 2) = 0
    ∧ k2_off1 (grid2.coords t) (0 : Fin 2) = 1024 * (t.val % 8) ∧ k2_off1 (grid2.coords t) (1 : Fin 2) = 0
    ∧ k2_off2 (grid2.coords t) (0 : Fin 2) = 1024 * (t.val / 8) ∧ k2_off2 (grid2.coords t) (1 : Fin 2) = 0 :=
  (by decide +kernel : ∀ t : Fin grid2.N, _)

theorem N64 : cfg2.N = 64 := N_2

/-- The row block of point `n`. -/
abbrev rowBlock (n : ℕ) (hn : n < cfg2.N) : Fin 8 := ⟨n / 8, by have := N64; omega⟩
/-- The tile column of point `n`. -/
abbrev tileCol (n : ℕ) : Fin 8 := ⟨n % 8, Nat.mod_lt _ (by decide)⟩

/-- One point's product, over any arrays: row p of point t's adjacency tile against column f of the rows of the
    support the point reads is the tile sum of node 1024·i + p at tile k. -/
theorem tile_eq (A : S8192x8192.Idx → EReal) (Y : S8192x256.Idx → EReal) (t : Fin cfg2.N)
    (inb : ∀ a, (k2_off1 (grid2.coords t)) a + S1024x256.size a ≤ S8192x256.size a) (p : Fin 1024) (f : Fin 256) :
    ∑ c' : Fin 1024, A (((cfg2.win 0).blk t).view.emb (ix2 p c'))
        * Y (((cfg2.win 1).blk t).view.emb ((Rect.unit (s := S8192x256) (k2_off1 (grid2.coords t)) S1024x256.size inb).idx (ix2 c' f)))
      = tileSum A Y (node (rowBlock t.val t.isLt) p) f (tileCol t.val) := by
  obtain ⟨e00, e01, e10, e11, e20, e21, e30, e31, e40, e41, o10, o11, o20, o21⟩ := idx_facts t
  unfold tileSum
  refine Finset.sum_congr rfl fun c' _ => ?_
  have hA : ((cfg2.win 0).blk t).view.emb (ix2 p c') = ix2 (node (rowBlock t.val t.isLt) p) (node (tileCol t.val) c') := by
    funext a; apply Fin.ext
    match a with
    | ⟨0, _⟩ => show win2_0.index t (0 : Fin 2) * 1024 + 1 * p.val = p.val + 1024 * (t.val / 8); omega
    | ⟨1, _⟩ => show win2_0.index t (1 : Fin 2) * 1024 + 1 * c'.val = c'.val + 1024 * (t.val % 8); omega
  have hY : ((cfg2.win 1).blk t).view.emb ((Rect.unit (s := S8192x256) (k2_off1 (grid2.coords t)) S1024x256.size inb).idx (ix2 c' f))
      = ix2 (node (tileCol t.val) c') f := by
    funext a; apply Fin.ext
    match a with
    | ⟨0, _⟩ => show win2_1.index t (0 : Fin 2) * 8192 + 1 * (k2_off1 (grid2.coords t) (0 : Fin 2) + 1 * c'.val) = c'.val + 1024 * (t.val % 8); omega
    | ⟨1, _⟩ => show win2_1.index t (1 : Fin 2) * 256 + 1 * (k2_off1 (grid2.coords t) (1 : Fin 2) + 1 * f.val) = f.val; omega
  rw [hA, hY]

/-- The finished layer, over any arrays: adjacency `A`, scaled support `Y`, node scalings `S`, bias `B`. -/
def mainOut (A : S8192x8192.Idx → EReal) (Y : S8192x256.Idx → EReal) (S : S8192x1.Idx → EReal) (B : S1x256.Idx → EReal) :
    S8192x256.Idx → EReal := fun i =>
  max (S (ix2 (i 0) (0 : Fin 1)) * (Cert.Spec.two * Y i - ∑ c : Fin 8192, A (ix2 (i 0) c) * Y (ix2 c (i 1))) + B (ix2 (0 : Fin 1) (i 1))) 0

/-- The finished block at entry (p, f) of point t, over any arrays, from an accumulator that holds all eight tile
    products: it is the finished layer at the output block's entry (p, f). -/
theorem out_eq (A : S8192x8192.Idx → EReal) (Y : S8192x256.Idx → EReal) (S : S8192x1.Idx → EReal) (B : S1x256.Idx → EReal)
    (t : Fin cfg2.N) (inb : ∀ a, (k2_off2 (grid2.coords t)) a + S1024x256.size a ≤ S8192x256.size a)
    (acc : S1024x256.Idx → EReal) (p : Fin 1024) (f : Fin 256)
    (hacc : acc (ix2 p f) = accSum A Y (node (rowBlock t.val t.isLt) p) f 8) :
    max (S (((cfg2.win 2).blk t).view.emb (ix2 p (0 : Fin 1)))
          * (Cert.Spec.two * Y (((cfg2.win 1).blk t).view.emb ((Rect.unit (s := S8192x256) (k2_off2 (grid2.coords t)) S1024x256.size inb).idx (ix2 p f)))
              - acc (ix2 p f))
        + B (((cfg2.win 3).blk t).view.emb (ix2 (0 : Fin 1) f))) 0
      = mainOut A Y S B (((cfg2.win 4).blk t).view.emb (ix2 p f)) := by
  obtain ⟨e00, e01, e10, e11, e20, e21, e30, e31, e40, e41, o10, o11, o20, o21⟩ := idx_facts t
  have h4 : ((cfg2.win 4).blk t).view.emb (ix2 p f) = ix2 (node (rowBlock t.val t.isLt) p) f := by
    funext a; apply Fin.ext
    match a with
    | ⟨0, _⟩ => show win2_4.index t (0 : Fin 2) * 1024 + 1 * p.val = p.val + 1024 * (t.val / 8); omega
    | ⟨1, _⟩ => show win2_4.index t (1 : Fin 2) * 256 + 1 * f.val = f.val; omega
  have h2 : ((cfg2.win 2).blk t).view.emb (ix2 p (0 : Fin 1)) = ix2 (node (rowBlock t.val t.isLt) p) (0 : Fin 1) := by
    funext a; apply Fin.ext
    match a with
    | ⟨0, _⟩ => show win2_2.index t (0 : Fin 2) * 1024 + 1 * p.val = p.val + 1024 * (t.val / 8); omega
    | ⟨1, _⟩ => show win2_2.index t (1 : Fin 2) * 1 + 1 * 0 = 0; omega
  have h1 : ((cfg2.win 1).blk t).view.emb ((Rect.unit (s := S8192x256) (k2_off2 (grid2.coords t)) S1024x256.size inb).idx (ix2 p f))
      = ix2 (node (rowBlock t.val t.isLt) p) f := by
    funext a; apply Fin.ext
    match a with
    | ⟨0, _⟩ => show win2_1.index t (0 : Fin 2) * 8192 + 1 * (k2_off2 (grid2.coords t) (0 : Fin 2) + 1 * p.val) = p.val + 1024 * (t.val / 8); omega
    | ⟨1, _⟩ => show win2_1.index t (1 : Fin 2) * 256 + 1 * (k2_off2 (grid2.coords t) (1 : Fin 2) + 1 * f.val) = f.val; omega
  have h3 : ((cfg2.win 3).blk t).view.emb (ix2 (0 : Fin 1) f) = ix2 (0 : Fin 1) f := by
    funext a; apply Fin.ext
    match a with
    | ⟨0, _⟩ => show win2_3.index t (0 : Fin 2) * 1 + 1 * 0 = 0; omega
    | ⟨1, _⟩ => show win2_3.index t (1 : Fin 2) * 256 + 1 * f.val = f.val; omega
  rw [h4, h2, h1, h3, hacc, accSum_eight]
  rfl

/-! ## The accumulator after each point -/

variable (V : (c : Dev nD) → (b : Ref sig .tc) → Buf (Elt Ideal) ((c : Thread nD τ).loc b))

theorem snd_of_eq {α β : Type} {q : α × β} {a : α} {b : β} (h : q = (a, b)) : q.2 = b := by subst h; rfl
theorem fst_of_eq {α β : Type} {q : α × β} {a : α} {b : β} (h : q = (a, b)) : q.1 = a := by subst h; rfl

/-- The accumulation step at entry (p, f) of point t: what the accumulator held plus the point's tile product. -/
theorem step (c : Dev nD) (t : Fin cfg2.N) (xs : Vec Ideal S1024x256 .f32) (p : Fin 1024) (f : Fin 256) :
    k2_pay2 (View.ld (S := S8192x256) (iblk2 V c 1 t) (Rect.unit (s := S8192x256) (k2_off1 (grid2.coords t)) S1024x256.size (k2_off1_inb (grid2.coords t)))) (iblk2 V c 0 t) xs (ix2 p f)
      = xs (ix2 p f) + tileSum (V c main_arg1) (V c main_v6) (node (rowBlock t.val t.isLt) p) f (tileCol t.val) := by
  refine (MainPayloads.pay2_apply _ _ _ p f).trans ?_
  exact congrArg (fun a : EReal => xs (ix2 p f) + a) (tile_eq (V c main_arg1) (V c main_v6) t _ p f)

/-- What the run with k = 0 leaves in the accumulator at (p, f): the point's tile product. -/
theorem accFirst_apply (c : Dev nD) (t : Fin cfg2.N) (hz : zeroes (grid2.coords t)) (he : ¬emits (grid2.coords t)) (p : Fin 1024) (f : Fin 256) :
    accFirst V c t hz he (ix2 p f) = tileSum (V c main_arg1) (V c main_v6) (node (rowBlock t.val t.isLt) p) f (tileCol t.val) := by
  refine (congrFun (accFirst_eq V c t hz he) (ix2 p f)).trans ?_
  refine (step V c t _ p f).trans ?_
  rw [MainPayloads.pay1_apply, zero_add]

/-- After a point with k = 0 the accumulator holds the point's tile product. -/
theorem acc_first (c : Dev nD) (t : Fin cfg2.N) (h0 : t.val % 8 = 0) (h1 : ¬ t.val % 8 = 7) (p : Fin 1024) (f : Fin 256) :
    (outsAt2 V c t.val t.isLt).2 (ix2 p f)
      = tileSum (V c main_arg1) (V c main_v6) (node (rowBlock t.val t.isLt) p) f (tileCol t.val) :=
  (congrFun (snd_of_eq (outsAt2_first V c t h0 h1)) (ix2 p f)).trans (accFirst_apply V c t _ _ p f)

/-- After a point with 0 < k < 7 it holds what the point before left plus the point's tile product. -/
theorem acc_middle (c : Dev nD) (t : Fin cfg2.N) (h0 : ¬ t.val % 8 = 0) (h1 : ¬ t.val % 8 = 7) (p : Fin 1024) (f : Fin 256) :
    (outsAt2 V c t.val t.isLt).2 (ix2 p f)
      = (outsAt2 V c (t.val - 1) (Nat.lt_of_le_of_lt (Nat.sub_le _ _) t.isLt)).2 (ix2 p f)
        + tileSum (V c main_arg1) (V c main_v6) (node (rowBlock t.val t.isLt) p) f (tileCol t.val) :=
  (congrFun (snd_of_eq (outsAt2_middle V c t h0 h1)) (ix2 p f)).trans
    ((congrFun (accMiddle_eq V c t _ _ _) (ix2 p f)).trans (step V c t _ p f))

/-- The same after a point with k = 7. -/
theorem acc_last (c : Dev nD) (t : Fin cfg2.N) (h0 : ¬ t.val % 8 = 0) (h1 : t.val % 8 = 7) (p : Fin 1024) (f : Fin 256) :
    (outsAt2 V c t.val t.isLt).2 (ix2 p f)
      = (outsAt2 V c (t.val - 1) (Nat.lt_of_le_of_lt (Nat.sub_le _ _) t.isLt)).2 (ix2 p f)
        + tileSum (V c main_arg1) (V c main_v6) (node (rowBlock t.val t.isLt) p) f (tileCol t.val) :=
  (congrFun (snd_of_eq (outsAt2_last V c t h0 h1)) (ix2 p f)).trans
    ((congrFun (accLast_eq V c t _ _ _) (ix2 p f)).trans (step V c t _ p f))

/-- After point n = 8·i + k the accumulator holds, at (p, f), the first k + 1 tile products of node 1024·i + p. -/
theorem acc_inv (c : Dev nD) : ∀ (n : ℕ) (hn : n < cfg2.N) (p : Fin 1024) (f : Fin 256),
    (outsAt2 V c n hn).2 (ix2 p f) = accSum (V c main_arg1) (V c main_v6) (node (rowBlock n hn) p) f (n % 8 + 1) := by
  intro n
  induction n using Nat.strong_induction_on with
  | _ n ih =>
    intro hn p f
    rw [accSum_succ _ _ _ _ (n % 8) (Nat.mod_lt _ (by decide))]
    by_cases h0 : n % 8 = 0
    · have h1 : ¬ n % 8 = 7 := by omega
      have hz : accSum (V c main_arg1) (V c main_v6) (node (rowBlock n hn) p) f (n % 8) = 0 := by
        rw [h0]; exact accSum_zero _ _ _ _
      rw [hz, zero_add]
      exact acc_first V c ⟨n, hn⟩ h0 h1 p f
    · have hlt : n - 1 < n := by omega
      have hm : n - 1 < cfg2.N := Nat.lt_of_le_of_lt (Nat.sub_le _ _) hn
      have hr : rowBlock (n - 1) hm = rowBlock n hn := Fin.ext (by show (n - 1) / 8 = n / 8; omega)
      have hk : (n - 1) % 8 + 1 = n % 8 := by omega
      have hprev := ih (n - 1) hlt hm p f
      rw [hr, hk] at hprev
      rw [← hprev]
      by_cases h1 : n % 8 = 7
      · exact acc_last V c ⟨n, hn⟩ h0 h1 p f
      · exact acc_middle V c ⟨n, hn⟩ h0 h1 p f

/-! ## What the flushing points write back, and the array at the end -/

/-- What a point with k = 7 writes back is its block of the finished layer of the arrays as the region finds them. -/
theorem flushed_eq (c : Dev nD) (t : Fin cfg2.N) (hf : (cfg2.win 4).flush t = true) :
    (dat2 V c).flushed 4 t
      = ((cfg2.win 4).blk t).view.read (Elt Ideal) (mainOut (V c main_arg1) (V c main_v6) (V c main_v5) (V c main_v7)) := by
  have h1 : t.val % 8 = 7 := (flush2_4 t).mp hf
  have h0 : ¬ t.val % 8 = 0 := by omega
  have hout := (after2_4 V c t).trans (fst_of_eq (outsAt2_last V c t h0 h1))
  show (cfg2.win 4).cut (grid2.coords t) ((dat2 V c).after 4 t) = _
  rw [hout, outLast_eq]
  funext j
  obtain ⟨p, f, rfl⟩ : ∃ (p : Fin 1024) (f : Fin 256), j = ix2 p f := ⟨j 0, j 1, eq_ix2 j⟩
  refine (MainPayloads.pay3_apply _ _ _ _ p f).trans ?_
  refine out_eq (V c main_arg1) (V c main_v6) (V c main_v5) (V c main_v7) t _ _ p f ?_
  have hacc := acc_inv V c t.val t.isLt p f
  rw [h1] at hacc
  have hlast := congrFun (snd_of_eq (outsAt2_last V c t h0 h1)) (ix2 p f)
  have hpay := congrFun (accLast_eq V c t (fun h => h0 ((zeroes_iff t).mp h)) ((emits_iff t).mpr h1)
    (outsAt2 V c (t.val - 1) (Nat.lt_of_le_of_lt (Nat.sub_le _ _) t.isLt)).2) (ix2 p f)
  exact hpay.symm.trans (hlast.symm.trans hacc)

/-- An index of the array is in point t's block iff each coordinate is in the block's range on its axis. -/
theorem mem_blk (t : Fin cfg2.N) (i : S8192x256.Idx) :
    i ∈ ((cfg2.win 4).blk t).view.set ↔ ∀ a : Fin 2, win2_4.index t a * S1024x256.size a ≤ (i a).val ∧ (i a).val < win2_4.index t a * S1024x256.size a + S1024x256.size a := by
  show i ∈ ((View.whole main_v8).slice (win2_4.rect t)).set ↔ _
  rw [View.set_slice_whole, Rect.mem_set_unit]
  exact Iff.rfl

/-- Every row of the array is in the block of a point that writes back: row r in that of point 8·(r / 1024) + 7. -/
theorem cover (i : S8192x256.Idx) : ∃ t : Fin cfg2.N, (cfg2.win 4).flush t = true ∧ i ∈ ((cfg2.win 4).blk t).view.set := by
  have hi0 : (i 0).val < 8192 := (i 0).isLt
  have hi1 : (i 1).val < 256 := (i 1).isLt
  have hlt : 8 * ((i 0).val / 1024) + 7 < cfg2.N := by rw [N64]; omega
  refine ⟨⟨8 * ((i 0).val / 1024) + 7, hlt⟩, (flush2_4 _).mpr (by show (8 * ((i 0).val / 1024) + 7) % 8 = 7; omega), ?_⟩
  rw [mem_blk]
  obtain ⟨e00, e01, e10, e11, e20, e21, e30, e31, e40, e41, o10, o11, o20, o21⟩ := idx_facts ⟨8 * ((i 0).val / 1024) + 7, hlt⟩
  intro a
  match a with
  | ⟨0, _⟩ =>
    show win2_4.index _ (0 : Fin 2) * 1024 ≤ (i 0).val ∧ (i 0).val < win2_4.index _ (0 : Fin 2) * 1024 + 1024
    rw [e40]
    show (8 * ((i 0).val / 1024) + 7) / 8 * 1024 ≤ _ ∧ _ < (8 * ((i 0).val / 1024) + 7) / 8 * 1024 + 1024
    omega
  | ⟨1, _⟩ =>
    show win2_4.index _ (1 : Fin 2) * 256 ≤ (i 1).val ∧ (i 1).val < win2_4.index _ (1 : Fin 2) * 256 + 256
    rw [e41]
    omega

/-- The output array after the region: the finished layer of the arrays as the region finds them. -/
theorem final (c : Dev nD) :
    (dat2 V c).arrAt 4 cfg2.N = mainOut (V c main_arg1) (V c main_v6) (V c main_v5) (V c main_v7) :=
  (dat2 V c).arrAt_eq_of_cover 4 (mainOut (V c main_arg1) (V c main_v6) (V c main_v5) (V c main_v7))
    (fun t hf => flushed_eq V c t hf) cover

end Cert.KernelIdeal.MainValue

end
-- ==== Proof.KernelValue.lean ====
/-
  The kernel's result as one function of the four argument arrays, at the exact instance: after the main region the
  output array holds the scaled-support arrangement — relu( s(r)·(2·(P(r,f)·s(r)) − Σ_c A(r,c)·(P(c,f)·s(c))) + b f ) —
  because the main region finds the adjacency as launched, the support array at P·s, the scaling column at s and the
  bias row at b.
-/
import proofs.«109137_j20117626815086_2_alg».proof.Proof.Gen.KernelIdeal.Launch
import proofs.«109137_j20117626815086_2_alg».proof.Proof.Gen.KernelIdeal.Skeleton
import proofs.«109137_j20117626815086_2_alg».proof.Proof.Gen.KernelIdeal.Points
import proofs.«109137_j20117626815086_2_alg».proof.Proof.Run
import proofs.«109137_j20117626815086_2_alg».proof.Proof.Boundaries
import proofs.«109137_j20117626815086_2_alg».proof.Proof.MainValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KernelValue

open Cert.KernelIdeal Cert.KernelIdeal.Gen Cert.KernelIdeal.Run Cert.KernelIdeal.Boundaries Cert.KernelIdeal.MainRegion
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The output array at the end of @main is the scaled-support arrangement of the arguments. -/
theorem result (c : Dev nD) :
    (W5 m c (Proc.devRef .tc main_v8) : S8192x256.Idx → EReal)
      = Cert.Spec.scaledForm (argX m c) (argA m c) (argW m c) (argB m c) := by
  refine (W5_arr m c 4).trans ((Cert.KernelIdeal.MainValue.final (V4 m) c).trans ?_)
  show Cert.KernelIdeal.MainValue.mainOut (W4 m c (Proc.devRef .tc main_arg1)) (W4 m c (Proc.devRef .tc main_v6))
    (W4 m c (Proc.devRef .tc main_v5)) (W4 m c (Proc.devRef .tc main_v7)) = _
  rw [W4_arg1, W4_support, support_arr, W4_scale, scale_col, bias_row]
  rfl

end Cert.KernelIdeal.KernelValue

end
-- ==== Proof.RefValue.lean ====
/-
  The reference program's result, read at an index, is the dense-operator arrangement of the specification.

  Stage by stage: the row sum of A from the initial value 0 is the degree; 2 + degree, its square root and one over it
  give the node scaling, broadcast once down the rows and once along the columns; the identity matrix is the
  comparison of the row coordinate (plus a zero word) with the column coordinate, converted to a float: 1 on the
  diagonal, 0 off it; the operator's entry at (r, c) is (s(r)·(2·δ(r,c) − A(r,c)))·s(c); the two contractions are
  the sums over the node c and over the input feature k; the bias is read at the output feature; the relu is the
  maximum against the zero word.
-/
import proofs.«109137_j20117626815086_2_alg».proof.Proof.Gen.ReferenceIdeal.Read
import proofs.«109137_j20117626815086_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open scoped BigOperators

/-! ### The composed index functions of the stages, as coordinates -/

theorem idx_row (i : S8192x256.Idx) (k k' : Fin 8192) :
    idx_main_v0 (idx_main_v15 (idx_main_v16 (lidx_main_v22 i k))) k' = (ix2 (i 0 : Fin 8192) k' : S8192x8192.Idx) :=
  funext fun a => Fin.ext (by match a with | ⟨0, _⟩ => rfl | ⟨1, _⟩ => rfl)

theorem idx_col (i : S8192x256.Idx) (k k' : Fin 8192) :
    idx_main_v0 (idx_main_v18 (idx_main_v19 (lidx_main_v22 i k))) k' = (ix2 k k' : S8192x8192.Idx) :=
  funext fun a => Fin.ext (by match a with | ⟨0, _⟩ => rfl | ⟨1, _⟩ => rfl)

theorem idx_entry (i : S8192x256.Idx) (k : Fin 8192) :
    lidx_main_v22 i k = (ix2 (i 0 : Fin 8192) k : S8192x8192.Idx) :=
  funext fun a => Fin.ext (by match a with | ⟨0, _⟩ => rfl | ⟨1, _⟩ => rfl)

theorem idx_input (i : S8192x256.Idx) (k : Fin 8192) (q : Fin 512) :
    lidx_main_v21 (ridx_main_v22 i k) q = (ix2 k q : S8192x512.Idx) :=
  funext fun a => Fin.ext (by match a with | ⟨0, _⟩ => rfl | ⟨1, _⟩ => rfl)

theorem idx_weight (i : S8192x256.Idx) (k : Fin 8192) (q : Fin 512) :
    ridx_main_v21 (ridx_main_v22 i k) q = (ix2 q (i 1 : Fin 256) : S512x256.Idx) :=
  funext fun a => Fin.ext (by match a with | ⟨0, _⟩ => rfl | ⟨1, _⟩ => rfl)

theorem idx_bias (i : S8192x256.Idx) : idx_main_v23 (idx_main_v24 i) = (ix1 (i 1 : Fin 256) : S256.Idx) :=
  funext fun a => Fin.ext (by match a with | ⟨0, _⟩ => rfl)

/-! ### The identity matrix's entry -/

/-- The comparison of two coordinates below 8192 as 32-bit words, converted to a float: 1 where they are equal, else 0. -/
theorem delta_eq (r c : Fin 8192) :
    FloatOps.uitofp (F := Ideal) .f32 (IntOp.cmpi .eq (IntOp.addi (BitVec.ofNat 32 r.val) 0#32) (BitVec.ofNat 32 c.val))
      = if r.val = c.val then (1 : EReal) else 0 := by
  show (((IntOp.cmpi .eq (IntOp.addi (BitVec.ofNat 32 r.val) 0#32) (BitVec.ofNat 32 c.val)).toNat : ℝ) : EReal) = _
  have hadd : IntOp.addi (BitVec.ofNat 32 r.val) 0#32 = BitVec.ofNat 32 r.val := BitVec.add_zero _
  rw [hadd]
  show (((BitVec.ofBool (BitVec.ofNat 32 r.val == BitVec.ofNat 32 c.val)).toNat : ℝ) : EReal) = _
  by_cases h : r.val = c.val
  · rw [if_pos h, h, beq_self_eq_true]
    show (((1 : ℕ) : ℝ) : EReal) = 1
    rw [Nat.cast_one, EReal.coe_one]
  · have hne : BitVec.ofNat 32 r.val ≠ BitVec.ofNat 32 c.val := by
      intro e
      have e' := congrArg BitVec.toNat e
      rw [BitVec.toNat_ofNat, BitVec.toNat_ofNat] at e'
      have hr := r.isLt
      have hc := c.isLt
      rw [Nat.mod_eq_of_lt (by omega), Nat.mod_eq_of_lt (by omega)] at e'
      exact h e'
    rw [if_neg h, beq_eq_false_iff_ne.mpr hne]
    show (((0 : ℕ) : ℝ) : EReal) = 0
    rw [Nat.cast_zero, EReal.coe_zero]

/-! ### One term of the outer contraction -/

theorem entry_eq (x0 : S8192x512.Idx → EReal) (x1 : S8192x8192.Idx → EReal) (x2 : S512x256.Idx → EReal)
    (r : Fin 8192) (f : Fin 256) (c : Fin 8192) :
    FloatOps.mulf (F := Ideal) (φ := .f32)
        (FloatOps.mulf
          (FloatOps.hostDivf (FloatOps.ofBits .f32 0x3F800000#32)
            (FloatOps.hostUnary .sqrt (FloatOps.addf (FloatOps.ofBits .f32 0x40000000#32)
              (FloatOps.ofBits .f32 0x00000000#32 + ∑ k : Fin 8192, x1 (ix2 r k)))))
          (FloatOps.subf
            (FloatOps.mulf (FloatOps.ofBits .f32 0x40000000#32)
              (FloatOps.uitofp .f32 (IntOp.cmpi .eq (IntOp.addi (BitVec.ofNat 32 r.val) 0#32) (BitVec.ofNat 32 c.val))))
            (x1 (ix2 r c))))
        (FloatOps.hostDivf (FloatOps.ofBits .f32 0x3F800000#32)
          (FloatOps.hostUnary .sqrt (FloatOps.addf (FloatOps.ofBits .f32 0x40000000#32)
            (FloatOps.ofBits .f32 0x00000000#32 + ∑ k : Fin 8192, x1 (ix2 c k)))))
      * ∑ q : Fin 512, x0 (ix2 c q) * x2 (ix2 q f)
    = ((Cert.Spec.scale x1 r * (Cert.Spec.two * (if r.val = c.val then (1 : EReal) else 0) - x1 (ix2 r c)))
        * Cert.Spec.scale x1 c) * Cert.Spec.support x0 x2 c f := by
  rw [delta_eq]
  simp only [Ideal.mulf_def, Ideal.subf_def, Ideal.addf_def, Ideal.hostDivf_def, Ideal.hostUnary_sqrt_def,
    Ideal.ofBits_def, Ideal.ofBits_zero_f32, zero_add]
  rfl

/-! ### The reference's result is the dense-operator arrangement -/

theorem val_main_v26_eq_denseForm (x0 : (⟨S8192x512, .f32⟩ : BufTy).Contents (Elt Ideal))
    (x1 : (⟨S8192x8192, .f32⟩ : BufTy).Contents (Elt Ideal)) (x2 : (⟨S512x256, .f32⟩ : BufTy).Contents (Elt Ideal))
    (x3 : (⟨S256, .f32⟩ : BufTy).Contents (Elt Ideal)) :
    val_main_v26 (F := Ideal) x0 x1 x2 x3 = Cert.Spec.denseForm x0 x1 x2 x3 := by
  funext i
  rw [val_main_v26_apply, val_main_v25_apply, val_main_v22_apply, val_main_call0_v0_apply, val_main_call0_cst_apply,
    val_main_v24_apply, val_main_v23_apply]
  simp only [val_main_v20_apply, val_main_v17_apply, val_main_v16_apply, val_main_v15_apply, val_main_v19_apply,
    val_main_v18_apply, val_main_v14_apply, val_main_v13_apply, val_main_cst_2_apply, val_main_v12_apply,
    val_main_v11_apply, val_main_v10_apply, val_main_cst_1_apply, val_main_v0_apply, val_main_cst_apply,
    val_main_v9_apply, val_main_v8_apply, val_main_v7_apply, val_main_cst_0_apply, val_main_v6_apply,
    val_main_v5_apply, val_main_v4_apply, val_main_v3_apply, val_main_c_apply, val_main_v2_apply, val_main_v1_apply,
    val_main_v21_apply]
  simp only [idx_row, idx_col]
  simp only [idx_entry, idx_input, idx_weight, idx_bias]
  show max ((∑ c : Fin 8192, _) + x3 (ix1 (i 1 : Fin 256))) (Ideal.ofBits .f32 0x00000000#32) = _
  rw [Ideal.ofBits_zero_f32]
  unfold Cert.Spec.denseForm
  refine congrArg (fun t : EReal => max (t + x3 (ix1 (i 1 : Fin 256))) 0) (Finset.sum_congr rfl fun c _ => ?_)
  exact entry_eq x0 x1 x2 (i 0) (i 1) c

end Cert.ReferenceIdeal.RefValue

end
-- ==== Proof.Algebra.lean ====
/-
  The dense-operator arrangement and the scaled-support arrangement of the normalised sharpening layer agree on
  the extended reals, when the entries of X, A and W are real and every 2 + deg r is positive.

  The extended reals do not distribute at the infinities, so everything is first shown to be (the image of) a real:
  a finite sum of reals is real, so the degrees and the support are real; 2 + deg r is then a positive real, its square
  root a positive real, and one over it a real s(r). Both arrangements are then max(↑(a real expression) + b, 0), and
  the two real expressions agree by the identity
    Σ_c (s_r·(2·δ(r,c) − a_c))·s_c·p_c = s_r·(2·(p_r·s_r) − Σ_c a_c·(p_c·s_c)),
  which is linearity of the sum and Σ_c δ(r,c)·t_c = t_r.
-/
import proofs.«109137_j20117626815086_2_alg».proof.Proof.Spec
import Idealize.ShloMosaic.PureOps.Ideal.Laws
import Idealize.ShloMosaic.Lib.IdealHost
import Mathlib.Tactic.Ring
import Mathlib.Tactic.NormNum
import Mathlib.Algebra.BigOperators.Ring.Finset

noncomputable section

namespace Cert.Spec

open Idealize.ShloMosaic Idealize.ShloMosaic.ValueIdx
open scoped BigOperators

/-! ### The real identity, over any finite index type -/

/-- The dense operator applied to the support equals the scaled-support arrangement, over the reals. -/
theorem real_identity {ι : Type} [Fintype ι] [DecidableEq ι] (r : ι) (s a p : ι → ℝ) :
    ∑ c, ((s r * (2 * (if r = c then (1 : ℝ) else 0) - a c)) * s c) * p c
      = s r * (2 * (p r * s r) - ∑ c, a c * (p c * s c)) := by
  have h1 : ∀ c, ((s r * (2 * (if r = c then (1 : ℝ) else 0) - a c)) * s c) * p c
      = (if r = c then 2 * s r * (p c * s c) else 0) - s r * (a c * (p c * s c)) := by
    intro c
    by_cases h : r = c
    · rw [if_pos h, if_pos h]; ring
    · rw [if_neg h, if_neg h]; ring
  rw [Finset.sum_congr rfl (fun c _ => h1 c), Finset.sum_sub_distrib, Finset.sum_ite_eq, if_pos (Finset.mem_univ r),
    ← Finset.mul_sum]
  ring

/-! ### The two constants -/

/-- The f32 word `0x40000000` denotes the real 2. -/
theorem two_eq : two = ((2 : ℝ) : EReal) := by
  simp [Ideal.ofBits, Ideal.ieee, -EReal.coe_mul]; norm_num

/-- The f32 word `0x3F800000` denotes the real 1. -/
theorem one_eq : one = ((1 : ℝ) : EReal) := by
  show Ideal.ofBits .f32 0x3F800000#32 = _
  rw [Ideal.ofBits_one_f32, EReal.coe_one]

/-! ### A finite sum of reals is real -/

theorem coe_sum {ι : Type} (t : Finset ι) (f : ι → ℝ) : ((∑ i ∈ t, f i : ℝ) : EReal) = ∑ i ∈ t, (f i : EReal) := by
  classical
  induction t using Finset.induction_on with
  | empty => simp
  | insert j t hj ih => rw [Finset.sum_insert hj, Finset.sum_insert hj, EReal.coe_add, ih]

/-! ### The degrees, the support and the node scaling are real -/

variable (X : SX.Idx → EReal) (A : SA.Idx → EReal) (W : SW.Idx → EReal) (b : SB.Idx → EReal)
variable (x : SX.Idx → ℝ) (a : SA.Idx → ℝ) (w : SW.Idx → ℝ)

/-- The real degree of node `r`. -/
def degR (r : Fin 8192) : ℝ := ∑ c : Fin 8192, a (ix2 r c)

/-- The real node scaling `(√(2 + deg r))⁻¹`. -/
def scaleR (r : Fin 8192) : ℝ := (Real.sqrt (2 + degR a r))⁻¹

/-- The real support. -/
def supportR (c : Fin 8192) (f : Fin 256) : ℝ := ∑ k : Fin 512, x (ix2 c k) * w (ix2 k f)

theorem deg_eq (ha : ∀ i, A i = (a i : EReal)) (r : Fin 8192) : deg A r = (degR a r : EReal) := by
  unfold deg degR
  rw [coe_sum]
  exact Finset.sum_congr rfl fun c _ => ha _

theorem support_eq (hx : ∀ i, X i = (x i : EReal)) (hw : ∀ i, W i = (w i : EReal)) (c : Fin 8192) (f : Fin 256) :
    support X W c f = (supportR x w c f : EReal) := by
  unfold support supportR
  rw [coe_sum]
  exact Finset.sum_congr rfl fun k _ => by rw [hx, hw, EReal.coe_mul]

/-- Where `2 + deg r` is positive, the node scaling is the real `(√(2 + deg r))⁻¹`. -/
theorem scale_eq (ha : ∀ i, A i = (a i : EReal)) (r : Fin 8192) (hpos : 0 < two + deg A r) :
    scale A r = (scaleR a r : EReal) := by
  have hd := deg_eq A a ha r
  rw [two_eq, hd, ← EReal.coe_add] at hpos
  have hp : 0 < 2 + degR a r := EReal.coe_pos.mp hpos
  unfold scale scaleR
  rw [two_eq, hd, ← EReal.coe_add, Ideal.sqrt_coe, if_neg (not_lt.mpr hp.le),
    Ideal.div_coe (Real.sqrt_pos.mpr hp).ne', one_eq, ← EReal.coe_mul, one_mul, one_div]

/-! ### The two arrangements as real expressions -/

section
variable (hx : ∀ i, X i = (x i : EReal)) (ha : ∀ i, A i = (a i : EReal)) (hw : ∀ i, W i = (w i : EReal))
  (hpos : ∀ r : Fin 8192, 0 < two + deg A r)
include hx ha hw hpos

/-- The dense operator applied to the support, as a real. -/
theorem dense_sum_eq (r : Fin 8192) (f : Fin 256) :
    (∑ c : Fin 8192, ((scale A r * (two * (if r.val = c.val then (1 : EReal) else 0) - A (ix2 r c))) * scale A c)
        * support X W c f)
      = ((∑ c : Fin 8192, ((scaleR a r * (2 * (if r = c then (1 : ℝ) else 0) - a (ix2 r c))) * scaleR a c)
        * supportR x w c f : ℝ) : EReal) := by
  rw [coe_sum]
  refine Finset.sum_congr rfl fun c _ => ?_
  have hδ : (if r.val = c.val then (1 : EReal) else 0) = ((if r = c then (1 : ℝ) else 0 : ℝ) : EReal) := by
    by_cases h : r = c
    · rw [if_pos (congrArg Fin.val h), if_pos h, EReal.coe_one]
    · rw [if_neg (fun h' => h (Fin.ext h')), if_neg h, EReal.coe_zero]
  rw [scale_eq A a ha r (hpos r), scale_eq A a ha c (hpos c), support_eq X W x w hx hw, hδ, ha, two_eq,
    ← EReal.coe_mul, ← EReal.coe_sub, ← EReal.coe_mul, ← EReal.coe_mul, ← EReal.coe_mul]

/-- The scaled-support arrangement before the bias, as a real. -/
theorem scaled_expr_eq (r : Fin 8192) (f : Fin 256) :
    scale A r * (two * scaled X A W r f - ∑ c : Fin 8192, A (ix2 r c) * scaled X A W c f)
      = ((scaleR a r * (2 * (supportR x w r f * scaleR a r)
          - ∑ c : Fin 8192, a (ix2 r c) * (supportR x w c f * scaleR a c)) : ℝ) : EReal) := by
  have hsc : ∀ c, scaled X A W c f = ((supportR x w c f * scaleR a c : ℝ) : EReal) := fun c => by
    unfold scaled
    rw [support_eq X W x w hx hw, scale_eq A a ha c (hpos c), ← EReal.coe_mul]
  have hsum : ∑ c : Fin 8192, A (ix2 r c) * scaled X A W c f
      = ((∑ c : Fin 8192, a (ix2 r c) * (supportR x w c f * scaleR a c) : ℝ) : EReal) := by
    rw [coe_sum]
    exact Finset.sum_congr rfl fun c _ => by rw [ha, hsc, ← EReal.coe_mul]
  rw [hsum, hsc, scale_eq A a ha r (hpos r), two_eq, ← EReal.coe_mul, ← EReal.coe_sub, ← EReal.coe_mul]

end

/-! ### The equivalence -/

/-- With real entries in `X`, `A`, `W` and every `2 + deg r` positive, the dense-operator arrangement and the
    scaled-support arrangement are the same function. The bias may be any extended real. -/
theorem denseForm_eq_scaledForm
    (hX : ∀ i, ∃ x : ℝ, X i = (x : EReal)) (hA : ∀ i, ∃ a : ℝ, A i = (a : EReal)) (hW : ∀ i, ∃ w : ℝ, W i = (w : EReal))
    (hpos : ∀ r : Fin 8192, 0 < two + deg A r) : denseForm X A W b = scaledForm X A W b := by
  choose x hx using hX
  choose a ha using hA
  choose w hw using hW
  funext i
  unfold denseForm scaledForm
  rw [dense_sum_eq X A W x a w hx ha hw hpos (i 0) (i 1), scaled_expr_eq X A W x a w hx ha hw hpos (i 0) (i 1)]
  exact congrArg (fun t : ℝ => max ((t : EReal) + b (ix1 (i 1))) 0)
    (real_identity (ι := Fin 8192) (i 0) (scaleR a) (fun c => a (ix2 (i 0) c)) (fun c => supportR x w c (i 1)))

end Cert.Spec

end
-- ==== Proof.PreDecode.lean ====
/-
  The precondition read back. It says: every entry of the four argument arrays has absolute value below +∞, and for
  every row r the word 2 plus (0 plus the row sum of A) is above 0. On the extended reals |x| < ⊤ means x is neither
  ⊤ nor ⊥, that is, x is a real; and the row sum from the initial value 0 is the degree of the specification.
-/
import proofs.«109137_j20117626815086_2_alg».proof.Pre_finite_inputs
import proofs.«109137_j20117626815086_2_alg».proof.Proof.Gen.Pre_finite_inputs
import proofs.«109137_j20117626815086_2_alg».proof.Proof.Spec
import Idealize.ShloMosaic.Lib.ReduceAll
import Idealize.ShloMosaic.PureOps.Ideal.Laws
import Idealize.ShloMosaic.Lib.IdealHost

noncomputable section

namespace Cert.PreDecode

open Idealize.ShloMosaic Idealize.ShloMosaic.ValueIdx Cert.Pre_finite_inputs
open scoped BigOperators

instance : Subsingleton S_.Idx := ⟨fun a b => funext fun d => d.elim0⟩

/-- The f32 word `0x7F800000` denotes +∞. -/
theorem ofBits_inf : Ideal.ofBits .f32 0x7F800000#32 = ⊤ := by simp [Ideal.ofBits, Ideal.ieee]

theorem ofBool_eq_one (b : Bool) : BitVec.ofBool b = 1#1 ↔ b = true := by cases b <;> decide

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  unfold Ideal.cmp at h
  rw [ofBool_eq_one] at h
  have h' : max x (-x) < ⊤ := of_decide_eq_true h
  induction x using EReal.rec with
  | bot => simp at h'
  | top => simp at h'
  | coe r => exact ⟨r, rfl⟩

/-- The host's row sum of `A` from the initial value 0, at row `r`, is the degree of `r`. -/
theorem rowsum_eq (a : FVec Ideal S8192x8192 .f32) (r : Fin 8192) :
    Host.reduceAdd (F := Ideal) a (constant S_ .f32 0x00000000#32) Facts.reducesTo_S8192x8192_S8192_d1 Facts.h_S_ (ix1 r)
      = Cert.Spec.deg a r := by
  simp only [Host.reduceAdd, Ideal.hostReduceAdd_def]
  rw [Ideal.hostReduceAdd_single Facts.reducesTo_S8192x8192_S8192_d1 (by decide)]
  show Ideal.ofBits .f32 0x00000000#32 + _ = _
  rw [Ideal.ofBits_zero_f32, zero_add]
  unfold Cert.Spec.deg
  refine Finset.sum_congr rfl fun k _ => ?_
  exact congrArg a (funext fun d => Fin.ext (by match d with | ⟨0, _⟩ => rfl | ⟨1, _⟩ => rfl))

/-- The comparison `2 + (0 + Σ_c A(r,c)) > 0` of the precondition, read at row `r`. -/
theorem pos_of_cmp (a : FVec Ideal S8192x8192 .f32) (r : Fin 8192)
    (hr : cmpf (F := Ideal) .ogt
        (addf (broadcastInDim S8192 ![] Facts.bcast_S_S8192 (constant S_ .f32 0x40000000#32))
          (Host.reduceAdd a (constant S_ .f32 0x00000000#32) Facts.reducesTo_S8192x8192_S8192_d1 Facts.h_S_))
        (broadcastInDim S8192 ![] Facts.bcast_S_S8192 (constant S_ .f32 0x00000000#32)) (ix1 r) = 1#1) :
    0 < Cert.Spec.two + Cert.Spec.deg a r := by
  have h1 : Ideal.cmp .ogt
      (Cert.Spec.two + Host.reduceAdd (F := Ideal) a (constant S_ .f32 0x00000000#32)
        Facts.reducesTo_S8192x8192_S8192_d1 Facts.h_S_ (ix1 r))
      (Ideal.ofBits .f32 0x00000000#32) = 1#1 := hr
  rw [rowsum_eq, Ideal.ofBits_zero_f32] at h1
  unfold Ideal.cmp at h1
  rw [ofBool_eq_one] at h1
  exact of_decide_eq_true h1

/-- The precondition decoded: the entries of the four arrays are reals, and every `2 + deg r` is positive. -/
theorem decode (x : FVec Ideal S8192x512 .f32) (a : FVec Ideal S8192x8192 .f32) (w : FVec Ideal S512x256 .f32)
    (b : FVec Ideal S256 .f32) (h : Cert.Pre_finite_inputs.fn (F := Ideal) x a w b = fun _ => 1#1) :
    (∀ i, ∃ r : ℝ, x i = (r : EReal)) ∧ (∀ i, ∃ r : ℝ, a i = (r : EReal)) ∧ (∀ i, ∃ r : ℝ, w i = (r : EReal))
      ∧ (∀ i, ∃ r : ℝ, b i = (r : EReal)) ∧ ∀ r : Fin 8192, 0 < Cert.Spec.two + Cert.Spec.deg a r := by
  have e := congrFun h ValueIdx.ix0
  dsimp only [Cert.Pre_finite_inputs.fn, Cert.Pre_finite_inputs.fn_part1] at e
  simp only [andi, IntOp.andi_eq_one] at e
  obtain ⟨⟨⟨⟨hx, ha⟩, hw⟩, hb⟩, hd⟩ := e
  exact ⟨fun i => real_of_abs_lt (x i) (Host.reduce_andi_all _ _ _ _ _ hx i),
    fun i => real_of_abs_lt (a i) (Host.reduce_andi_all _ _ _ _ _ ha i),
    fun i => real_of_abs_lt (w i) (Host.reduce_andi_all _ _ _ _ _ hw i),
    fun i => real_of_abs_lt (b i) (Host.reduce_andi_all _ _ _ _ _ hb i),
    fun r => pos_of_cmp a r (Host.reduce_andi_all _ _ _ _ _ hd (ix1 r))⟩

end Cert.PreDecode

end
-- ==== Proof.lean ====
/-
  The certificate of a normalised graph-sharpening layer: a three-kernel program against its dense reference.

  With deg r = Σ_c A(r,c), node scaling s(r) = 1/√(2 + deg r) and support P = X·W, the reference forms the dense
  operator L(r,c) = (s(r)·(2·δ(r,c) − A(r,c)))·s(c) and returns relu(L·P + b).  The kernel never forms L: one region
  sums the rows of A, host operations turn the degrees into s, a second region stores y = P·s row-scaled, and the main
  region accumulates A·y tile by tile over a reduction axis and finishes with relu( s·(2·y − A·y) + b ).
  Over the extended reals the two agree wherever every input entry is a real number and every 2 + deg r is positive
  (the precondition): then s is a positive real, every sum is a real sum, and the identity is distributivity, the
  sum of a Kronecker delta, and commutativity — none of which survive an infinite s, which is why 2 + deg r > 0 is
  needed and used.

  The three frames: each program runs to its end, faults nowhere and leaves its arguments unchanged — the kernel's,
  at the word level and at the exact instance, by running @main as three regions and two host stretches; the
  reference's by its run as a list of host operations.  The idealization rewrote no operation, so `preserves` has
  nothing to state.
-/
import proofs.«109137_j20117626815086_2_alg».proof.Defs
import proofs.«109137_j20117626815086_2_alg».proof.Proof.Gen.Kernel
import proofs.«109137_j20117626815086_2_alg».proof.Proof.Gen.Kernel.Skeleton
import proofs.«109137_j20117626815086_2_alg».proof.Proof.Gen.Kernel.Launch
import proofs.«109137_j20117626815086_2_alg».proof.Proof.Gen.Kernel.Regions
import proofs.«109137_j20117626815086_2_alg».proof.Proof.Gen.Kernel.Points
import proofs.«109137_j20117626815086_2_alg».proof.Proof.Gen.KernelIdeal
import proofs.«109137_j20117626815086_2_alg».proof.Proof.Gen.KernelIdeal.Skeleton
import proofs.«109137_j20117626815086_2_alg».proof.Proof.Gen.KernelIdeal.Launch
import proofs.«109137_j20117626815086_2_alg».proof.Proof.Gen.KernelIdeal.Regions
import proofs.«109137_j20117626815086_2_alg».proof.Proof.Gen.KernelIdeal.Points
import proofs.«109137_j20117626815086_2_alg».proof.Proof.Gen.ReferenceIdeal
import proofs.«109137_j20117626815086_2_alg».proof.Proof.Gen.ReferenceIdeal.Run
import proofs.«109137_j20117626815086_2_alg».proof.Proof.Gen.ReferenceIdeal.Read
import proofs.«109137_j20117626815086_2_alg».proof.Proof.Gen.Pre_finite_inputs
import proofs.«109137_j20117626815086_2_alg».proof.Proof.BitsRun
import proofs.«109137_j20117626815086_2_alg».proof.Proof.Run
import proofs.«109137_j20117626815086_2_alg».proof.Proof.KernelValue
import proofs.«109137_j20117626815086_2_alg».proof.Proof.RefValue
import proofs.«109137_j20117626815086_2_alg».proof.Proof.Algebra
import proofs.«109137_j20117626815086_2_alg».proof.Proof.PreDecode
import Idealize.ShloMosaic.Adequacy
import Idealize.ShloMosaic.Init

noncomputable section

namespace Cert.Proof

open Idealize.ShloMosaic Idealize.ShloMosaic.TcCoe Idealize.SL.Sem

/-- The program as printed runs, faults nowhere and leaves its arguments as launched. -/
theorem frame_k : Cert.frame_Kernel (hKernel := Cert.Kernel.Gen.facts) (hPre_finite_inputs := Cert.Pre_finite_inputs.Gen.facts) :=
  fun m ρ _ => Cert.Kernel.Run.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the scaled-support arrangement of the arguments in their result: the kernel's
    output array by its run read region by region, the reference's dense arrangement by the algebraic identity under
    the precondition's finiteness and positive 2 + degree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.scaledForm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Run.run_all (F := Ideal) m ρ)
    exact ⟨(h c _ (Cert.KernelIdeal.Run.mem_uc Cert.KernelIdeal.main_v8 (by decide))).trans (Cert.KernelIdeal.KernelValue.result m c),
      (h c _ (Cert.KernelIdeal.Run.mem_uc Cert.KernelIdeal.main_arg0 (by decide))).trans (Cert.KernelIdeal.Run.W5_main_arg0 m c),
      (h c _ (Cert.KernelIdeal.Run.mem_uc Cert.KernelIdeal.main_arg1 (by decide))).trans (Cert.KernelIdeal.Run.W5_main_arg1 m c),
      (h c _ (Cert.KernelIdeal.Run.mem_uc Cert.KernelIdeal.main_arg2 (by decide))).trans (Cert.KernelIdeal.Run.W5_main_arg2 m c),
      (h c _ (Cert.KernelIdeal.Run.mem_uc Cert.KernelIdeal.main_arg3 (by decide))).trans (Cert.KernelIdeal.Run.W5_main_arg3 m c)⟩
  · refine (θ_run Cert.ReferenceIdeal.defs _ _).mono (fun _ h c => ⟨?_, (h c).2⟩) (Cert.ReferenceIdeal.Value.run (F := Ideal) m' ρ')
    obtain ⟨hX, hA, hW, -, hpos⟩ := Cert.PreDecode.decode _ _ _ _ (hpre c)
    rw [(h c).1, Cert.ReferenceIdeal.Read.val_main_v26_eq, Cert.ReferenceIdeal.RefValue.val_main_v26_eq_denseForm,
      (hagree c).1, (hagree c).2.1, (hagree c).2.2.1, (hagree c).2.2.2]
    exact Cert.Spec.denseForm_eq_scaledForm _ _ _ _ hX hA hW hpos

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
